-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S256x64 : Shape := ⟨2, ![256, 64]⟩
abbrev S256 : Shape := ⟨1, ![256]⟩
abbrev S3x256 : Shape := ⟨2, ![3, 256]⟩
abbrev S3 : Shape := ⟨1, ![3]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S256 .f32) (main_arg5 : FVec F S3x256 .f32) (main_arg6 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S3x256 .f32 := Host.absf main_arg5
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S500000x64 .f32) (main_arg1 : FVec F S256x64 .f32) (main_arg2 : FVec F S256 .f32) (main_arg3 : FVec F S256 .f32) (main_arg4 : FVec F S256 .f32) (main_arg5 : FVec F S3x256 .f32) (main_arg6 : FVec F S3 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S500000x64 : Shape := ⟨2, ![500000, 64]⟩
abbrev S256x64 : Shape := ⟨2, ![256, 64]⟩
abbrev S256 : Shape := ⟨1, ![256]⟩
abbrev S3x256 : Shape := ⟨2, ![3, 256]⟩
abbrev S3 : Shape := ⟨1, ![3]⟩
abbrev S64x256 : Shape := ⟨2, ![64, 256]⟩
abbrev S256x3 : Shape := ⟨2, ![256, 3]⟩
abbrev S1x256 : Shape := ⟨2, ![1, 256]⟩
abbrev S1x3 : Shape := ⟨2, ![1, 3]⟩
abbrev S500000x3 : Shape := ⟨2, ![500000, 3]⟩
abbrev S10000x64 : Shape := ⟨2, ![10000, 64]⟩
abbrev S10000x3 : Shape := ⟨2, ![10000, 3]⟩
abbrev S2000x64 : Shape := ⟨2, ![2000, 64]⟩
abbrev S2000x256 : Shape := ⟨2, ![2000, 256]⟩
abbrev S2000 : Shape := ⟨1, ![2000]⟩
abbrev S2000x1 : Shape := ⟨2, ![2000, 1]⟩
abbrev S2000x3 : Shape := ⟨2, ![2000, 3]⟩

abbrev nBuf : Space → Nat
  | .hbm => 16
  | .vmem => 10
  | .smem => 0
  | _ => 0

abbrev bufTy : (tb : Table) → Fin (tcTables nBuf tb) → BufTy
  | .hbm, ⟨0, _⟩ => ⟨S500000x64, .f32⟩
  | .hbm, ⟨1, _⟩ => ⟨S256x64, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S3x256, .f32⟩
  | .hbm, ⟨6, _⟩ => ⟨S3, .f32⟩
  | .hbm, ⟨7, _⟩ => ⟨S64x256, .f32⟩
  | .hbm, ⟨8, _⟩ => ⟨S64x256, .bf16⟩
  | .hbm, ⟨9, _⟩ => ⟨S256x3, .f32⟩
  | .hbm, ⟨10, _⟩ => ⟨S256x3, .bf16⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x3, .f32⟩
  | .hbm, ⟨15, _⟩ => ⟨S500000x3, .f32⟩
  | .local _ .vmem, ⟨0, _⟩ => ⟨S10000x64, .f32⟩
  | .local _ .vmem, ⟨1, _⟩ => ⟨S10000x64, .f32⟩
  | .local _ .vmem, ⟨2, _⟩ => ⟨S64x256, .bf16⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x3, .bf16⟩
  | .local _ .vmem, ⟨7, _⟩ => ⟨S1x3, .f32⟩
  | .local _ .vmem, ⟨8, _⟩ => ⟨S10000x3, .f32⟩
  | .local _ .vmem, ⟨9, _⟩ => ⟨S10000x3, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![50], ![false]⟩

def k0_mult1 : BitVec 32 :=
  let c0_i32 : BitVec 32 := 0#32
  let c2000_i32 : BitVec 32 := 2000#32
  let v12 : BitVec 32 := Scalar.muli c0_i32 c2000_i32
  v12
def k0_off1 (c0_i32 : BitVec 32) : Fin 2 → Nat :=
  let c2000_i32 : BitVec 32 := 2000#32
  let v12 : BitVec 32 := Scalar.muli c0_i32 c2000_i32
  let v13 : BitVec 32 := v12
  let v14 : Index := Scalar.indexCast v13
  let c0_11 : Index := 0#32
  ![v14.toNat, 0]
def k0_off2 (c0_i32 : BitVec 32) : Fin 2 → Nat :=
  let c2000_i32 : BitVec 32 := 2000#32
  let v12 : BitVec 32 := Scalar.muli c0_i32 c2000_i32
  let v13 : BitVec 32 := v12
  let v46 : Index := Scalar.indexCast v13
  let c0_19 : Index := 0#32
  ![v46.toNat, 0]
def k0_mult2 : BitVec 32 :=
  let c1_i32 : BitVec 32 := 1#32
  let c2000_i32_20 : BitVec 32 := 2000#32
  let v48 : BitVec 32 := Scalar.muli c1_i32 c2000_i32_20
  v48
def k0_mult3 : BitVec 32 :=
  let c2_i32 : BitVec 32 := 2#32
  let c2000_i32_31 : BitVec 32 := 2000#32
  let v84 : BitVec 32 := Scalar.muli c2_i32 c2000_i32_31
  v84
def k0_mult4 : BitVec 32 :=
  let c3_i32 : BitVec 32 := 3#32
  let c2000_i32_42 : BitVec 32 := 2000#32
  let v120 : BitVec 32 := Scalar.muli c3_i32 c2000_i32_42
  v120
def k0_mult5 : BitVec 32 :=
  let c4_i32 : BitVec 32 := 4#32
  let c2000_i32_53 : BitVec 32 := 2000#32
  let v156 : BitVec 32 := Scalar.muli c4_i32 c2000_i32_53
  v156
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x64_S64x256_1_0 : S256x64.Transposes [1, 0] S64x256
  bitsLt_bf16_f32 : FTy.bits .bf16 < FTy.bits .f32
  transposes_S3x256_S256x3_1_0 : S3x256.Transposes [1, 0] S256x3
  shapeCasts_S256_S1x256 : S256.ShapeCasts S1x256
  shapeCasts_S3_S1x3 : S3.ShapeCasts S1x3
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x3_S1x3_0_0 : ∀ a, (![0, 0] : Fin 2 → Nat) a + S1x3.size a ≤ S1x3.size a
  h_S1x3 : 0 < S1x3.numel
  shapeCasts_S1x3_S1x3 : S1x3.ShapeCasts S1x3
  h_S2000x64 : 0 < S2000x64.numel
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  broadcasts_S1x3_S2000x3 : S1x3.Broadcasts S2000x3
  h_S2000x3 : 0 < S2000x3.numel
  dot_S2000x64_S64x256_S2000x256_1_0_0_1_n_n_wf : DotDims.WF S2000x64 S64x256 S2000x256 [1] [0] [0] [1] [] []
  dot_S2000x256_S256x3_S2000x3_1_0_0_1_n_n_wf : DotDims.WF S2000x256 S256x3 S2000x3 [1] [0] [0] [1] [] []
  hrank0 : 0 < grid0.rank
  k0_mult1_dvd : 2000 ∣ k0_mult1.toNat
  k0_off1_inb : ∀ (r : Fin 5), ∀ a, (k0_off1 (BitVec.ofNat 32 r.val)) a + S2000x64.size a ≤ S10000x64.size a
  k0_off2_inb : ∀ (r : Fin 5), ∀ a, (k0_off2 (BitVec.ofNat 32 r.val)) a + S2000x3.size a ≤ S10000x3.size a
  k0_mult2_dvd : 2000 ∣ k0_mult2.toNat
  k0_mult3_dvd : 2000 ∣ k0_mult3.toNat
  k0_mult4_dvd : 2000 ∣ k0_mult4.toNat
  k0_mult5_dvd : 2000 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x3.size a ≤ S256x3.size a
  hwx0_5 : ∀ i : grid0.Coords, EltTy.bits .bf16 = 32 ∨ (Rect.block (s := S256x3) S256x3.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x3.size a ≤ S500000x3.size a
  hwx0_7 : ∀ i : grid0.Coords, EltTy.bits .f32 = 32 ∨ (Rect.block (s := S500000x3) S10000x3.size (cc0_transform_7 i) (hinb0_7 i)).WholeWords (EltTy.packing .f32)

variable [Facts₀]

def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x3_S2000x3_1_0_0_1_n_n : DotDims S2000x256 S256x3 S2000x3 where
  lhsContracting := [1]
  rhsContracting := [0]
  lhsNonContracting := [0]
  rhsNonContracting := [1]
  lhsBatch := []
  rhsBatch := []
  wf := dot_S2000x256_S256x3_S2000x3_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S10000x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x64 : Shape := ⟨2, ![500000, 64]⟩
abbrev S256x64 : Shape := ⟨2, ![256, 64]⟩
abbrev S256 : Shape := ⟨1, ![256]⟩
abbrev S3x256 : Shape := ⟨2, ![3, 256]⟩
abbrev S3 : Shape := ⟨1, ![3]⟩
abbrev S500000x256 : Shape := ⟨2, ![500000, 256]⟩
abbrev S1x256 : Shape := ⟨2, ![1, 256]⟩
abbrev S_ : Shape := ⟨0, ![]⟩
abbrev S500000 : Shape := ⟨1, ![500000]⟩
abbrev S500000x1 : Shape := ⟨2, ![500000, 1]⟩
abbrev S500000x3 : Shape := ⟨2, ![500000, 3]⟩
abbrev S1x3 : Shape := ⟨2, ![1, 3]⟩

abbrev nBuf : Space → Nat
  | .hbm => 62
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S256x64, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S3x256, .f32⟩
  | .hbm, ⟨6, _⟩ => ⟨S3, .f32⟩
  | .hbm, ⟨7, _⟩ => ⟨S500000x256, .f32⟩
  | .hbm, ⟨8, _⟩ => ⟨S1x256, .f32⟩
  | .hbm, ⟨9, _⟩ => ⟨S500000x256, .f32⟩
  | .hbm, ⟨10, _⟩ => ⟨S500000x256, .f32⟩
  | .hbm, ⟨11, _⟩ => ⟨S_, .f32⟩
  | .hbm, ⟨12, _⟩ => ⟨S500000, .f32⟩
  | .hbm, ⟨13, _⟩ => ⟨S500000x1, .f32⟩
  | .hbm, ⟨14, _⟩ => ⟨S_, .f32⟩
  | .hbm, ⟨15, _⟩ => ⟨S500000x1, .f32⟩
  | .hbm, ⟨16, _⟩ => ⟨S500000x1, .f32⟩
  | .hbm, ⟨17, _⟩ => ⟨S_, .i32⟩
  | .hbm, ⟨18, _⟩ => ⟨S_, .f32⟩
  | .hbm, ⟨19, _⟩ => ⟨S500000, .f32⟩
  | .hbm, ⟨20, _⟩ => ⟨S500000x1, .f32⟩
  | .hbm, ⟨21, _⟩ => ⟨S_, .f32⟩
  | .hbm, ⟨22, _⟩ => ⟨S500000x1, .f32⟩
  | .hbm, ⟨23, _⟩ => ⟨S500000x1, .f32⟩
  | .hbm, ⟨24, _⟩ => ⟨S500000x256, .f32⟩
  | .hbm, ⟨25, _⟩ => ⟨S500000x256, .f32⟩
  | .hbm, ⟨26, _⟩ => ⟨S500000x256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S500000, .f32⟩
  | .hbm, ⟨32, _⟩ => ⟨S500000x1, .f32⟩
  | .hbm, ⟨33, _⟩ => ⟨S500000x1, .f32⟩
  | .hbm, ⟨34, _⟩ => ⟨S500000x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S500000x1, .f32⟩
  | .hbm, ⟨40, _⟩ => ⟨S500000x1, .f32⟩
  | .hbm, ⟨41, _⟩ => ⟨S500000x256, .f32⟩
  | .hbm, ⟨42, _⟩ => ⟨S500000x256, .f32⟩
  | .hbm, ⟨43, _⟩ => ⟨S_, .f32⟩
  | .hbm, ⟨44, _⟩ => ⟨S500000x1, .f32⟩
  | .hbm, ⟨45, _⟩ => ⟨S500000x1, .f32⟩
  | .hbm, ⟨46, _⟩ => ⟨S500000x1, .f32⟩
  | .hbm, ⟨47, _⟩ => ⟨S500000x256, .f32⟩
  | .hbm, ⟨48, _⟩ => ⟨S500000x256, .f32⟩
  | .hbm, ⟨49, _⟩ => ⟨S1x256, .f32⟩
  | .hbm, ⟨50, _⟩ => ⟨S500000x256, .f32⟩
  | .hbm, ⟨51, _⟩ => ⟨S500000x256, .f32⟩
  | .hbm, ⟨52, _⟩ => ⟨S1x256, .f32⟩
  | .hbm, ⟨53, _⟩ => ⟨S500000x256, .f32⟩
  | .hbm, ⟨54, _⟩ => ⟨S500000x256, .f32⟩
  | .hbm, ⟨55, _⟩ => ⟨S_, .f32⟩
  | .hbm, ⟨56, _⟩ => ⟨S500000x256, .f32⟩
  | .hbm, ⟨57, _⟩ => ⟨S500000x256, .f32⟩
  | .hbm, ⟨58, _⟩ => ⟨S500000x3, .f32⟩
  | .hbm, ⟨59, _⟩ => ⟨S1x3, .f32⟩
  | .hbm, ⟨60, _⟩ => ⟨S500000x3, .f32⟩
  | .hbm, ⟨61, _⟩ => ⟨S500000x3, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_call1_cst : Ref sig .tc := ⟨.hbm, 55, rfl⟩
abbrev main_call1_v0 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  reducesTo_S500000x256_S500000_d1 : S500000x256.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x256_0_1 : S500000x1.BroadcastsInDim S500000x256 (![0, 1] : Fin 2 → Fin S500000x256.rank)
  bcast_S_S500000x256 : S_.BroadcastsInDim S500000x256 (![] : Fin 0 → Fin S500000x256.rank)
  bcast_S3_S1x3_1 : S3.BroadcastsInDim S1x3 (![1] : Fin 1 → Fin S1x3.rank)
  bcast_S1x3_S500000x3_0_1 : S1x3.BroadcastsInDim S500000x3 (![0, 1] : Fin 2 → Fin S500000x3.rank)
  dot_S500000x64_S256x64_S500000x256_1_1_0_0_n_n_wf : DotDims.WF S500000x64 S256x64 S500000x256 [1] [1] [0] [0] [] []
  dot_S500000x256_S3x256_S500000x3_1_1_0_0_n_n_wf : DotDims.WF S500000x256 S3x256 S500000x3 [1] [1] [0] [0] [] []

variable [Facts₀]

def dot_S500000x64_S256x64_S500000x256_1_1_0_0_n_n : DotDims S500000x64 S256x64 S500000x256 where
  lhsContracting := [1]
  rhsContracting := [1]
  lhsNonContracting := [0]
  rhsNonContracting := [0]
  lhsBatch := []
  rhsBatch := []
  wf := dot_S500000x64_S256x64_S500000x256_1_1_0_0_n_n_wf
def dot_S500000x256_S3x256_S500000x3_1_1_0_0_n_n : DotDims S500000x256 S3x256 S500000x3 where
  lhsContracting := [1]
  rhsContracting := [1]
  lhsNonContracting := [0]
  rhsNonContracting := [0]
  lhsBatch := []
  rhsBatch := []
  wf := dot_S500000x256_S3x256_S500000x3_1_1_0_0_n_n_wf

class Facts : Prop extends Facts₀ where

variable [Facts]
-- ==== Proof.Chunk.lean ====
/-
  What the kernel's body computes on one slab of 2000 cells, as one function of the slab and the resident operands.

  The body walks its block of 10000 cells in five slabs of 2000 rows.  On each slab it does the same thing: the slab
  times the first weight matrix plus the first bias (`hidV`); each row minus its mean (`cenV`); the rows scaled by the
  reciprocal root of their variance plus the offset, by the gain, shifted, and cut at zero (`actV`); that times the second
  weight matrix plus the second bias (`chunk`).  The five stored values differ only in which slab they read.
-/
import proofs.«127905_j27479200759931_2_alg».proof.Proof.Gen.KernelIdeal.Skeleton

set_option synthInstance.maxSize 4096

noncomputable section

namespace Cert.KernelIdeal.Chunk

open Idealize.ShloMosaic Idealize.SL.Sem Cert.KernelIdeal Cert.KernelIdeal.Gen

variable {F : FTy → Type} [FloatOps F]

/-- The slab through the first linear layer. -/
def hidV (x : Vec F S2000x64 .f32) (w1 : FVec F S64x256 .bf16) (b1 : FVec F S1x256 .f32) : FVec F S2000x256 .f32 :=
  addf (matmul dot_S2000x64_S64x256_S2000x256_1_0_0_1_n_n none (truncf .bf16 x bitsLt_bf16_f32) w1
      (constant S2000x256 .f32 0x00000000#32))
    (broadcastTo S2000x256 b1 broadcasts_S1x256_S2000x256)

/-- The row sums of an array divided by 256, as a column. -/
def meanV (h : FVec F S2000x256 .f32) : FVec F S2000x1 .f32 :=
  divf (shapeCast S2000x1 (multiReduction .add [1] S2000 h 0x00000000#32 reduces_S2000x256_S2000 (.inl rfl) rfl)
      shapeCasts_S2000_S2000x1)
    (broadcast S2000x1 (Scalar.ofBits .f32 0x43800000#32))

/-- Each row minus its mean. -/
def cenV (h : FVec F S2000x256 .f32) : FVec F S2000x256 .f32 :=
  subf h (broadcastTo S2000x256 (meanV h) broadcasts_S2000x1_S2000x256)

/-- The centred rows scaled by the gain. -/
def scaledV (h : FVec F S2000x256 .f32) (g : FVec F S1x256 .f32) : FVec F S2000x256 .f32 :=
  mulf (mulf (cenV h)
      (broadcastTo S2000x256
        (rsqrt (addf (meanV (mulf (cenV h) (cenV h))) (broadcast S2000x1 (Scalar.ofBits .f32 0x3727C5AC#32))))
        broadcasts_S2000x1_S2000x256))
    (broadcastTo S2000x256 g broadcasts_S1x256_S2000x256)

/-- The normalised rows, shifted and cut at zero. -/
def actV (s : FVec F S2000x256 .f32) (be : FVec F S1x256 .f32) : FVec F S2000x256 .f32 :=
  maximumf (addf s (broadcastTo S2000x256 be broadcasts_S1x256_S2000x256))
    (broadcast S2000x256 (Scalar.ofBits .f32 0x00000000#32))

/-- The rectified rows through the second linear layer. -/
def outV (a : FVec F S2000x256 .f32) (w2 : FVec F S256x3 .bf16) (b2 : FVec F S1x3 .f32) : FVec F S2000x3 .f32 :=
  addf (matmul dot_S2000x256_S256x3_S2000x3_1_0_0_1_n_n none (truncf .bf16 a bitsLt_bf16_f32) w2
      (constant S2000x3 .f32 0x00000000#32))
    (broadcastTo S2000x3 b2 broadcasts_S1x3_S2000x3)

/-- One slab's stored value. -/
def chunk (x : Vec F S2000x64 .f32) (w1 : FVec F S64x256 .bf16) (b1 g be : FVec F S1x256 .f32)
    (w2 : FVec F S256x3 .bf16) (b2 : FVec F S1x3 .f32) : FVec F S2000x3 .f32 :=
  outV (actV (scaledV (hidV x w1 b1) g) be) w2 b2

/-- The first slab's value is cut after the gain (`k0_pay8`) and finished later (`k0_pay9`). -/
theorem pay9_eq (x1 : Vec F S64x256 .bf16) (x2 x3 : Vec F S1x256 .f32) (v9 : FVec F S1x256 .f32)
    (v3 : FVec F S256x3 .bf16) (v11 : FVec F S1x3 .f32) (x : Vec F S2000x64 .f32) :
    k0_pay9 v3 v9 v11 (k0_pay8 x1 x2 x3 x) = chunk x (k0_pay2 x1) (k0_pay4 x2) (k0_pay5 x3) v9 v3 v11 := rfl

/-- The second and third slabs' values are whole. -/
theorem pay10_eq (v1 : FVec F S64x256 .bf16) (v3 : FVec F S256x3 .bf16) (v5 v7 v9 : FVec F S1x256 .f32)
    (v11 : FVec F S1x3 .f32) (x : Vec F S2000x64 .f32) :
    k0_pay10 v1 v3 v5 v7 v9 v11 x = chunk x v1 v5 v7 v9 v3 v11 := rfl

theorem pay11_eq (v1 : FVec F S64x256 .bf16) (v3 : FVec F S256x3 .bf16) (v5 v7 v9 : FVec F S1x256 .f32)
    (v11 : FVec F S1x3 .f32) (x : Vec F S2000x64 .f32) :
    k0_pay11 v1 v3 v5 v7 v9 v11 x = chunk x v1 v5 v7 v9 v3 v11 := rfl

/-- The fourth slab's value is cut after the change of format of the slab. -/
theorem pay13_eq (v1 : FVec F S64x256 .bf16) (v3 : FVec F S256x3 .bf16) (v5 v7 v9 : FVec F S1x256 .f32)
    (v11 : FVec F S1x3 .f32) (x : Vec F S2000x64 .f32) :
    k0_pay13 v1 v3 v5 v7 v9 v11 (k0_pay12 x) = chunk x v1 v5 v7 v9 v3 v11 := rfl

/-- The fifth slab's value is cut after the first layer and after the mean. -/
theorem pay1_eq (v1 : FVec F S64x256 .bf16) (v3 : FVec F S256x3 .bf16) (v5 v7 v9 : FVec F S1x256 .f32)
    (v11 : FVec F S1x3 .f32) (x : Vec F S2000x64 .f32) :
    k0_pay1 v3 v7 v9 v11 (k0_pay14 v1 v5 x) (k0_pay15 v1 v5 x) = chunk x v1 v5 v7 v9 v3 v11 := rfl

end Cert.KernelIdeal.Chunk

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Spec.lean ====
/-
  One cell's motility force, on the extended reals.

  A cell's state `x` (a row of `C` numbers) goes through a linear layer, `h k = (∑ c, x c · w1 k c) + b1 k`; the hidden
  row is normalised, `cen k = h k - (∑ k, h k) / d`, `var = (∑ k, cen k · cen k) / d`, each entry scaled by
  `rsqrt (var + eps)`, by `g k`, and shifted by `be k`; what is negative is cut to zero; a second linear layer
  `(∑ k, · · w2 s k) + b2 s` gives the force's coordinate `s`.  The divisor `d` and the offset `eps` are parameters:
  both programs spell them by the same words.  The whole array's result at `(n, s)` is this function of row `n`.
-/
import Idealize.ShloMosaic.PureOps.Ideal
import proofs.«127905_j27479200759931_2_alg».proof.Proof.LibDense

noncomputable section

open scoped BigOperators

namespace Cert.Mlp

open Idealize.ShloMosaic Idealize.ShloMosaic.ValueIdx Cert.Dense

/-- The hidden row before normalisation. -/
def hid {C H : ℕ} (x : Fin C → EReal) (w1 : Fin H → Fin C → EReal) (b1 : Fin H → EReal) (k : Fin H) : EReal :=
  (∑ c : Fin C, x c * w1 k c) + b1 k

/-- A row minus its mean. -/
def cen {H : ℕ} (d : EReal) (h : Fin H → EReal) (k : Fin H) : EReal :=
  h k - Ideal.div (∑ k' : Fin H, h k') d

/-- The normalised, scaled, shifted and rectified row. -/
def act {H : ℕ} (d eps : EReal) (h : Fin H → EReal) (g be : Fin H → EReal) (k : Fin H) : EReal :=
  max (cen d h k * Ideal.rsqrt (Ideal.div (∑ k' : Fin H, cen d h k' * cen d h k') d + eps) * g k + be k) 0

/-- One cell's force coordinate `s`. -/
def rowOut {C H S : ℕ} (d eps : EReal) (x : Fin C → EReal) (w1 : Fin H → Fin C → EReal) (b1 g be : Fin H → EReal)
    (w2 : Fin S → Fin H → EReal) (b2 : Fin S → EReal) (s : Fin S) : EReal :=
  (∑ k : Fin H, act d eps (hid x w1 b1) g be k * w2 s k) + b2 s

/-- Every cell's force: entry `(n, s)` is the force coordinate `s` of the cell whose state is row `n` of `a0`; the weight
    matrices are read as given (`a1 (k, c)`, `a5 (s, k)`), the biases, gain and shift as vectors. -/
def forces {N C H S : ℕ} (d eps : EReal) (a0 : Mat N C) (a1 : Mat H C) (a2 a3 a4 : Row H) (a5 : Mat S H) (a6 : Row S) :
    Mat N S :=
  fun i => rowOut d eps (fun c : Fin C => a0 (ix2 (c0 i) c)) (fun (k : Fin H) (c : Fin C) => a1 (ix2 k c))
    (fun k : Fin H => a2 (ix1 k)) (fun k : Fin H => a3 (ix1 k)) (fun k : Fin H => a4 (ix1 k))
    (fun (s : Fin S) (k : Fin H) => a5 (ix2 s k)) (fun s : Fin S => a6 (ix1 s)) (c1 i)

theorem forces_apply {N C H S : ℕ} (d eps : EReal) (a0 : Mat N C) (a1 : Mat H C) (a2 a3 a4 : Row H) (a5 : Mat S H)
    (a6 : Row S) (n : Fin N) (s : Fin S) :
    forces d eps a0 a1 a2 a3 a4 a5 a6 (ix2 n s)
      = rowOut d eps (fun c : Fin C => a0 (ix2 n c)) (fun (k : Fin H) (c : Fin C) => a1 (ix2 k c))
          (fun k : Fin H => a2 (ix1 k)) (fun k : Fin H => a3 (ix1 k)) (fun k : Fin H => a4 (ix1 k))
          (fun (s : Fin S) (k : Fin H) => a5 (ix2 s k)) (fun s : Fin S => a6 (ix1 s)) s := rfl

end Cert.Mlp

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.ChunkValue.lean ====
/-
  One slab's stored value, read at an index on the extended reals.

  At row `r` of the slab and coordinate `s` the stored value is the force of the cell in that row: the slab's row `r`
  through `Cert.Mlp.rowOut`, with the first weight matrix read transposed (`w1 (c, k)` for hidden unit `k` and input
  `c`), the second likewise, and each bias, gain and shift read off its one row.  Every stage is read at an index by
  the one law of its operation: a matrix product into a zero accumulator is the sum over the contracted axis, a row sum
  cast to a column and broadcast back is the row's sum at every column, a one-row array broadcast to all rows is that
  row, a change of float format is the identity.
-/
import proofs.«127905_j27479200759931_2_alg».proof.Proof.Chunk
import proofs.«127905_j27479200759931_2_alg».proof.Proof.Spec
import proofs.«127905_j27479200759931_2_alg».proof.Proof.LibDense
import proofs.«127905_j27479200759931_2_alg».proof.Proof.LibRowBlocks

noncomputable section

open scoped BigOperators

namespace Cert.KernelIdeal.Chunk

open Idealize.ShloMosaic Idealize.ShloMosaic.ValueIdx Cert.KernelIdeal Cert.KernelIdeal.Gen

/-- The divisor both programs spell: the word of 256. -/
abbrev dW : EReal := Ideal.ofBits .f32 0x43800000#32
/-- The offset both programs spell under the root. -/
abbrev epsW : EReal := Ideal.ofBits .f32 0x3727C5AC#32

theorem hidV_apply (x : Vec Ideal S2000x64 .f32) (w1 : FVec Ideal S64x256 .bf16) (b1 : FVec Ideal S1x256 .f32)
    (r : Fin 2000) (k : Fin 256) :
    hidV x w1 b1 (ix2 r k)
      = Cert.Mlp.hid (fun c : Fin 64 => x (ix2 r c)) (fun (k : Fin 256) (c : Fin 64) => w1 (ix2 c k))
          (fun k : Fin 256 => b1 (ix2 (0 : Fin 1) k)) k := by
  show matmul (F := Ideal) dot_S2000x64_S64x256_S2000x256_1_0_0_1_n_n none (truncf .bf16 x bitsLt_bf16_f32) w1
        (constant S2000x256 .f32 0x00000000#32) (ix2 r k)
      + broadcastTo S2000x256 b1 broadcasts_S1x256_S2000x256 (ix2 r k) = _
  rw [Cert.Dense.matmul_zero_eq_mm _ rfl rfl rfl rfl rfl rfl, Cert.Dense.mm_apply, broadcastTo_1b_ab_apply]
  rfl

theorem meanV_apply (h : FVec Ideal S2000x256 .f32) (r : Fin 2000) (u : Fin 1) :
    meanV h (ix2 r u) = Ideal.div (∑ k : Fin 256, h (ix2 r k)) dW := by
  show Ideal.div (shapeCast S2000x1 (multiReduction .add [1] S2000 h 0x00000000#32 reduces_S2000x256_S2000 (.inl rfl) rfl)
      shapeCasts_S2000_S2000x1 (ix2 r u)) (Ideal.ofBits .f32 0x43800000#32) = _
  rw [Cert.RowBlocks.shapeCast_col_apply, Cert.RowBlocks.rowSum_apply]

theorem cenV_apply (h : FVec Ideal S2000x256 .f32) (r : Fin 2000) (k : Fin 256) :
    cenV h (ix2 r k) = Cert.Mlp.cen dW (fun k : Fin 256 => h (ix2 r k)) k := by
  show h (ix2 r k) - broadcastTo S2000x256 (meanV h) broadcasts_S2000x1_S2000x256 (ix2 r k) = _
  rw [Cert.RowBlocks.broadcastTo_col_apply, meanV_apply]
  rfl

theorem actV_scaledV_apply (h : FVec Ideal S2000x256 .f32) (g be : FVec Ideal S1x256 .f32) (r : Fin 2000) (k : Fin 256) :
    actV (scaledV h g) be (ix2 r k)
      = Cert.Mlp.act dW epsW (fun k : Fin 256 => h (ix2 r k)) (fun k : Fin 256 => g (ix2 (0 : Fin 1) k))
          (fun k : Fin 256 => be (ix2 (0 : Fin 1) k)) k := by
  show max (cenV h (ix2 r k)
        * broadcastTo S2000x256
            (rsqrt (addf (meanV (mulf (cenV h) (cenV h))) (broadcast S2000x1 (Scalar.ofBits .f32 0x3727C5AC#32))))
            broadcasts_S2000x1_S2000x256 (ix2 r k)
        * broadcastTo S2000x256 g broadcasts_S1x256_S2000x256 (ix2 r k)
      + broadcastTo S2000x256 be broadcasts_S1x256_S2000x256 (ix2 r k)) (Ideal.ofBits .f32 0x00000000#32) = _
  rw [Cert.RowBlocks.broadcastTo_col_apply, broadcastTo_1b_ab_apply, broadcastTo_1b_ab_apply, Ideal.ofBits_zero_f32]
  show max (cenV h (ix2 r k)
        * Ideal.rsqrt (meanV (mulf (cenV h) (cenV h)) (ix2 r (0 : Fin 1)) + Ideal.ofBits .f32 0x3727C5AC#32)
        * g (ix2 (0 : Fin 1) k) + be (ix2 (0 : Fin 1) k)) 0 = _
  rw [meanV_apply, cenV_apply]
  have e : ∀ k' : Fin 256, mulf (cenV h) (cenV h) (ix2 r k')
      = Cert.Mlp.cen dW (fun k : Fin 256 => h (ix2 r k)) k' * Cert.Mlp.cen dW (fun k : Fin 256 => h (ix2 r k)) k' :=
    fun k' => by
      show cenV h (ix2 r k') * cenV h (ix2 r k') = _
      rw [cenV_apply]
  rw [Finset.sum_congr rfl fun k' _ => e k']
  rfl

theorem outV_apply (a : FVec Ideal S2000x256 .f32) (w2 : FVec Ideal S256x3 .bf16) (b2 : FVec Ideal S1x3 .f32)
    (r : Fin 2000) (s : Fin 3) :
    outV a w2 b2 (ix2 r s) = (∑ k : Fin 256, a (ix2 r k) * w2 (ix2 k s)) + b2 (ix2 (0 : Fin 1) s) := by
  show matmul (F := Ideal) dot_S2000x256_S256x3_S2000x3_1_0_0_1_n_n none (truncf .bf16 a bitsLt_bf16_f32) w2
        (constant S2000x3 .f32 0x00000000#32) (ix2 r s)
      + broadcastTo S2000x3 b2 broadcasts_S1x3_S2000x3 (ix2 r s) = _
  rw [Cert.Dense.matmul_zero_eq_mm _ rfl rfl rfl rfl rfl rfl, Cert.Dense.mm_apply, broadcastTo_1b_ab_apply]
  rfl

/-- One slab's stored value at `(r, s)` is the force coordinate `s` of the cell in the slab's row `r`. -/
theorem chunk_apply (x : Vec Ideal S2000x64 .f32) (w1 : FVec Ideal S64x256 .bf16) (b1 g be : FVec Ideal S1x256 .f32)
    (w2 : FVec Ideal S256x3 .bf16) (b2 : FVec Ideal S1x3 .f32) (r : Fin 2000) (s : Fin 3) :
    chunk x w1 b1 g be w2 b2 (ix2 r s)
      = Cert.Mlp.rowOut dW epsW (fun c : Fin 64 => x (ix2 r c)) (fun (k : Fin 256) (c : Fin 64) => w1 (ix2 c k))
          (fun k : Fin 256 => b1 (ix2 (0 : Fin 1) k)) (fun k : Fin 256 => g (ix2 (0 : Fin 1) k))
          (fun k : Fin 256 => be (ix2 (0 : Fin 1) k)) (fun (s : Fin 3) (k : Fin 256) => w2 (ix2 k s))
          (fun s : Fin 3 => b2 (ix2 (0 : Fin 1) s)) s := by
  unfold chunk
  rw [outV_apply]
  unfold Cert.Mlp.rowOut
  refine congrArg (· + b2 (ix2 (0 : Fin 1) s)) (Finset.sum_congr rfl fun k _ => ?_)
  rw [actV_scaledV_apply]
  refine congrArg (fun f : Fin 256 → EReal => Cert.Mlp.act dW epsW f _ _ k * w2 (ix2 k s)) (funext fun k' => ?_)
  exact hidV_apply x w1 b1 r k'

end Cert.KernelIdeal.Chunk

end
-- ==== Proof.OutBlock.lean ====
/-
  What the body leaves in the output block of one grid point, read at an index.

  The body's five stores write the five slabs of 2000 rows of the block of 10000 cells; the slab written at row offset
  `o` is computed from the slab of the input block at the same offset.  So the block the stores leave is one function
  of the input block and the resident operands: at `(q, s)` the force coordinate `s` of the cell in row `q` of the block.
-/
import proofs.«127905_j27479200759931_2_alg».proof.Proof.Gen.KernelIdeal.Frame
import proofs.«127905_j27479200759931_2_alg».proof.Proof.ChunkValue
import Idealize.ShloMosaic.Lib.Pipeline.Value
import Idealize.ShloMosaic.Lib.Tactic

set_option maxRecDepth 16384
set_option pp.maxSteps 20000
set_option pp.deepTerms false

noncomputable section

open scoped BigOperators

namespace Cert.KernelIdeal.OutBlock

open Idealize.ShloMosaic Idealize.ShloMosaic.TcCoe Idealize.ShloMosaic.Tactic Idealize.SL.Sem Idealize.ShloMosaic.ValueIdx
open Cert.KernelIdeal Cert.KernelIdeal.Gen Cert.KernelIdeal.Chunk Cert.Dense

/-- The block of forces of the 10000 cells of an input block. -/
def blockOut (x0 : Vec Ideal S10000x64 .f32) (w1 : FVec Ideal S64x256 .bf16) (b1 g be : FVec Ideal S1x256 .f32)
    (w2 : FVec Ideal S256x3 .bf16) (b2 : FVec Ideal S1x3 .f32) : S10000x3.Idx → EReal :=
  fun y => Cert.Mlp.rowOut dW epsW (fun c : Fin 64 => x0 (ix2 (c0 y) c)) (fun (k : Fin 256) (c : Fin 64) => w1 (ix2 c k))
    (fun k : Fin 256 => b1 (ix2 (0 : Fin 1) k)) (fun k : Fin 256 => g (ix2 (0 : Fin 1) k))
    (fun k : Fin 256 => be (ix2 (0 : Fin 1) k)) (fun (s : Fin 3) (k : Fin 256) => w2 (ix2 k s))
    (fun s : Fin 3 => b2 (ix2 (0 : Fin 1) s)) (c1 y)

/-- The slab stored at row offset `o` is the block's rows `o … o + 1999`. -/
theorem slab_eq (o : ℕ) (inb3 : ∀ a, (![o, 0] : Fin 2 → ℕ) a + (![2000, 3] : Fin 2 → ℕ) a ≤ S10000x3.size a)
    (inb64 : ∀ a, (![o, 0] : Fin 2 → ℕ) a + S2000x64.size a ≤ S10000x64.size a)
    (x0 : Vec Ideal S10000x64 .f32) (w1 : FVec Ideal S64x256 .bf16) (b1 g be : FVec Ideal S1x256 .f32)
    (w2 : FVec Ideal S256x3 .bf16) (b2 : FVec Ideal S1x3 .f32)
    (x : (Rect.unit (s := S10000x3) ![o, 0] ![2000, 3] inb3).shape.Idx) :
    chunk (View.ld x0 (Rect.unit (s := S10000x64) ![o, 0] S2000x64.size inb64)) w1 b1 g be w2 b2 x
      = blockOut x0 w1 b1 g be w2 b2 ((Rect.unit (s := S10000x3) ![o, 0] ![2000, 3] inb3).emb x) := by
  obtain ⟨r, s, rfl⟩ : ∃ (r : Fin 2000) (s : Fin 3), x = ix2 r s := ⟨x 0, x 1, eq_ix2 x⟩
  rw [chunk_apply]
  unfold blockOut
  have h3 : o + 2000 ≤ 10000 := inb3 0
  have hr : o + r.val < 10000 := by have := r.isLt; omega
  have e0 : c0 ((Rect.unit (s := S10000x3) ![o, 0] ![2000, 3] inb3).emb (ix2 r s)) = (⟨o + r.val, hr⟩ : Fin 10000) :=
    Fin.ext (by show o + 1 * r.val = o + r.val; omega)
  have e1 : c1 ((Rect.unit (s := S10000x3) ![o, 0] ![2000, 3] inb3).emb (ix2 r s)) = s :=
    Fin.ext (by show 0 + 1 * s.val = s.val; omega)
  rw [e0, e1]
  refine congrArg (fun f : Fin 64 → EReal => Cert.Mlp.rowOut dW epsW f _ _ _ _ _ _ s) (funext fun c => ?_)
  show x0 ((Rect.unit (s := S10000x64) ![o, 0] S2000x64.size inb64).idx (ix2 r c)) = x0 (ix2 ⟨o + r.val, hr⟩ c)
  refine congrArg x0 (funext fun a => Fin.ext ?_)
  match a with
  | ⟨0, _⟩ => show o + 1 * r.val = o + r.val; omega
  | ⟨1, _⟩ => show 0 + 1 * c.val = c.val; omega

theorem hz2 : (![0, 0] : Fin 2 → Nat) = fun _ => 0 := funext fun a => by fin_cases a <;> rfl

/-- What the body leaves in the output block is the block of forces of the input block. -/
theorem out_eq (c : Dev nD) (i : grid0.Coords) (arg1 : Memref sig .tc .vmem S10000x64 .f32) (harg1 : arg1.IsWhole) (arg2 : Memref sig .tc .vmem S64x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x3 .bf16) (harg6 : arg6.IsWhole) (arg7 : Memref sig .tc .vmem S1x3 .f32) (harg7 : arg7.IsWhole) (arg8 : Memref sig .tc .vmem S10000x3 .f32) (harg8 : arg8.IsWhole)
    (x0 : Vec Ideal S10000x64 .f32) (x1 : Vec Ideal S64x256 .bf16) (x2 : Vec Ideal S1x256 .f32) (x3 : Vec Ideal S1x256 .f32) (x4 : Vec Ideal S1x256 .f32) (x5 : Vec Ideal S256x3 .bf16) (x6 : Vec Ideal S1x3 .f32) :
    out0_A_7 c i arg1 harg1 arg2 harg2 arg3 harg3 arg4 harg4 arg5 harg5 arg6 harg6 arg7 harg7 arg8 harg8 x0 x1 x2 x3 x4 x5 x6 = blockOut x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  funext y
  refine View.canon_apply_of_pieces (blockOut x0 x1 x2 x3 x4 x5 x6) _ ?_ y (cover0_A_7 c i arg1 harg1 arg2 harg2 arg3 harg3 arg4 harg4 arg5 harg5 arg6 harg6 arg7 harg7 arg8 harg8 x0 x1 x2 x3 x4 x5 x6 y)
  unfold kernelRun0_A
  dsimp only
  sl_unfold_words
  intro p hp
  simp only [List.mem_cons, List.not_mem_nil, or_false] at hp
  have rd1 : ∀ (r : Rect S10000x64), View.readAt (Elt Ideal) arg1.view r.toLoadRect (harg1.unread x0) = View.ld x0 r :=
    fun r => by rw [View.readAt_eq_ld, harg1.read_unread]
  have rd2 : ∀ inb, View.readAt (Elt Ideal) arg2.view (Rect.unit (s := S64x256) ![0, 0] S64x256.size inb).toLoadRect (harg2.unread x1) = x1 :=
    fun inb => by rw [View.readAt_eq_ld, harg2.read_unread, View.ld_unit_zero (S := S64x256) hz2]
  have rd3 : ∀ inb, View.readAt (Elt Ideal) arg3.view (Rect.unit (s := S1x256) ![0, 0] S1x256.size inb).toLoadRect (harg3.unread x2) = x2 :=
    fun inb => by rw [View.readAt_eq_ld, harg3.read_unread, View.ld_unit_zero (S := S1x256) hz2]
  have rd4 : ∀ inb, View.readAt (Elt Ideal) arg4.view (Rect.unit (s := S1x256) ![0, 0] S1x256.size inb).toLoadRect (harg4.unread x3) = x3 :=
    fun inb => by rw [View.readAt_eq_ld, harg4.read_unread, View.ld_unit_zero (S := S1x256) hz2]
  have rd5 : ∀ inb, View.readAt (Elt Ideal) arg5.view (Rect.unit (s := S1x256) ![0, 0] S1x256.size inb).toLoadRect (harg5.unread x4) = x4 :=
    fun inb => by rw [View.readAt_eq_ld, harg5.read_unread, View.ld_unit_zero (S := S1x256) hz2]
  have rd6 : ∀ inb, View.readAt (Elt Ideal) arg6.view (Rect.unit (s := S256x3) ![0, 0] S256x3.size inb).toLoadRect (harg6.unread x5) = x5 :=
    fun inb => by rw [View.readAt_eq_ld, harg6.read_unread, View.ld_unit_zero (S := S256x3) hz2]
  have rd7 : ∀ inb, View.readAt (Elt Ideal) arg7.view (Rect.unit (s := S1x3) ![0, 0] S1x3.size inb).toLoadRect (harg7.unread x6) = x6 :=
    fun inb => by rw [View.readAt_eq_ld, harg7.read_unread, View.ld_unit_zero (S := S1x3) hz2]
  have p2 : k0_pay2 x1 = x1 := shapeCast_self _ _
  have p3 : k0_pay3 x5 = x5 := shapeCast_self _ _
  have p4 : k0_pay4 x2 = x2 := shapeCast_self _ _
  have p5 : k0_pay5 x3 = x3 := shapeCast_self _ _
  have p6 : k0_pay6 x4 = x4 := shapeCast_self _ _
  have p7 : k0_pay7 x6 = x6 := shapeCast_self _ _
  rcases hp with rfl | rfl | rfl | rfl | rfl
  · intro x
    dsimp only
    rw [rd1, rd2, rd3, rd4, rd5, rd6, rd7, p2, p3, p4, p5, p6, p7, pay1_eq]
    exact slab_eq 8000 _ _ x0 x1 x2 x3 x4 x5 x6 x
  · intro x
    dsimp only
    rw [rd1, rd2, rd3, rd4, rd5, rd6, rd7, p2, p3, p4, p5, p6, p7, pay13_eq]
    exact slab_eq 6000 _ _ x0 x1 x2 x3 x4 x5 x6 x
  · intro x
    dsimp only
    rw [rd1, rd2, rd3, rd4, rd5, rd6, rd7, p2, p3, p4, p5, p6, p7, pay11_eq]
    exact slab_eq 4000 _ _ x0 x1 x2 x3 x4 x5 x6 x
  · intro x
    dsimp only
    rw [rd1, rd2, rd3, rd4, rd5, rd6, rd7, p2, p3, p4, p5, p6, p7, pay10_eq]
    exact slab_eq 2000 _ _ x0 x1 x2 x3 x4 x5 x6 x
  · intro x
    dsimp only
    rw [rd1, rd2, rd3, rd4, rd5, rd6, rd7, pay9_eq, p2, p3, p4, p5, p6, p7]
    exact slab_eq 0 _ _ x0 x1 x2 x3 x4 x5 x6 x

end Cert.KernelIdeal.OutBlock

end
-- ==== Proof.KernelRun.lean ====
/-
  The kernel's result array, as one function of its arguments.

  The grid has 50 points; point `t` reads rows `10000 t … 10000 t + 9999` of the cell states, the resident operands whole,
  and writes back rows `10000 t … 10000 t + 9999` of the result.  The resident operands are the arguments re-laid before
  the launch: the weight matrices transposed (and their format changed, which is the identity on the extended reals), the
  biases, gain and shift laid out as one row.  So the block point `t` writes back is the block of the forces of all cells
  (`Cert.Mlp.forces` of the arguments), and the fifty blocks tile the array.
-/
import proofs.«127905_j27479200759931_2_alg».proof.Proof.Gen.KernelIdeal.Value
import proofs.«127905_j27479200759931_2_alg».proof.Proof.OutBlock
import Idealize.ShloMosaic.Lib.ValueLayout
import Idealize.ShloMosaic.Lib.StableHlo.Run

set_option maxRecDepth 16384

noncomputable section

open scoped BigOperators

namespace Cert.KernelIdeal.KRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Chunk Cert.KernelIdeal.OutBlock Cert.Dense

variable (m : (ℓ : Loc nD τ sig) → Buf (Elt Ideal) ℓ) (ρ : Dev nD → PrngReg)

/-- The forces of all cells, from the arguments as launched. -/
abbrev result (c : Dev nD) : S500000x3.Idx → EReal :=
  Cert.Mlp.forces dW epsW (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-! ## The resident operands as the region finds them -/

theorem V_w1 (c : Dev nD) (cc : Fin 64) (k : Fin 256) :
    (V m c main_v1 : S64x256.Idx → EReal) (ix2 cc k)
      = (m ((c : Thread nD τ).loc main_arg1) : S256x64.Idx → EReal) (ix2 k cc) := by
  have e : @Eq (S64x256.Idx → EReal) (V m c main_v1)
      (truncf (F := Ideal) .bf16
        (transpose S64x256 [1, 0] (m ((c : Thread nD τ).loc main_arg1) : S256x64.Idx → EReal) transposes_S256x64_S64x256_1_0)
        bitsLt_bf16_f32) := by
    dsimp only [Gen.V, Gen.hostOps0]; after_results
  rw [e]
  exact transpose_ix2_apply _ _ cc k

theorem V_w2 (c : Dev nD) (k : Fin 256) (s : Fin 3) :
    (V m c main_v3 : S256x3.Idx → EReal) (ix2 k s)
      = (m ((c : Thread nD τ).loc main_arg5) : S3x256.Idx → EReal) (ix2 s k) := by
  have e : @Eq (S256x3.Idx → EReal) (V m c main_v3)
      (truncf (F := Ideal) .bf16
        (transpose S256x3 [1, 0] (m ((c : Thread nD τ).loc main_arg5) : S3x256.Idx → EReal) transposes_S3x256_S256x3_1_0)
        bitsLt_bf16_f32) := by
    dsimp only [Gen.V, Gen.hostOps0]; after_results
  rw [e]
  exact transpose_ix2_apply _ _ k s

theorem V_b1 (c : Dev nD) (u : Fin 1) (k : Fin 256) :
    (V m c main_v4 : S1x256.Idx → EReal) (ix2 u k) = (m ((c : Thread nD τ).loc main_arg2) : S256.Idx → EReal) (ix1 k) := by
  have e : (V m c main_v4 : S1x256.Idx → EReal)
      = shapeCast S1x256 (m ((c : Thread nD τ).loc main_arg2)) shapeCasts_S256_S1x256 := by
    dsimp only [Gen.V, Gen.hostOps0]; after_results; rfl
  rw [e]
  exact shapeCast_a_1a_apply _ _ u k

theorem V_g (c : Dev nD) (u : Fin 1) (k : Fin 256) :
    (V m c main_v5 : S1x256.Idx → EReal) (ix2 u k) = (m ((c : Thread nD τ).loc main_arg3) : S256.Idx → EReal) (ix1 k) := by
  have e : (V m c main_v5 : S1x256.Idx → EReal)
      = shapeCast S1x256 (m ((c : Thread nD τ).loc main_arg3)) shapeCasts_S256_S1x256 := by
    dsimp only [Gen.V, Gen.hostOps0]; after_results; rfl
  rw [e]
  exact shapeCast_a_1a_apply _ _ u k

theorem V_be (c : Dev nD) (u : Fin 1) (k : Fin 256) :
    (V m c main_v6 : S1x256.Idx → EReal) (ix2 u k) = (m ((c : Thread nD τ).loc main_arg4) : S256.Idx → EReal) (ix1 k) := by
  have e : (V m c main_v6 : S1x256.Idx → EReal)
      = shapeCast S1x256 (m ((c : Thread nD τ).loc main_arg4)) shapeCasts_S256_S1x256 := by
    dsimp only [Gen.V, Gen.hostOps0]; after_results; rfl
  rw [e]
  exact shapeCast_a_1a_apply _ _ u k

theorem V_b2 (c : Dev nD) (u : Fin 1) (s : Fin 3) :
    (V m c main_v7 : S1x3.Idx → EReal) (ix2 u s) = (m ((c : Thread nD τ).loc main_arg6) : S3.Idx → EReal) (ix1 s) := by
  have e : (V m c main_v7 : S1x3.Idx → EReal)
      = shapeCast S1x3 (m ((c : Thread nD τ).loc main_arg6)) shapeCasts_S3_S1x3 := by
    dsimp only [Gen.V, Gen.hostOps0]; after_results; rfl
  rw [e]
  exact shapeCast_a_1a_apply _ _ u s

/-! ## The windows' blocks -/

/-- The printed index maps over the grid: the cell-state and result windows move one block per point along the rows;
    the resident windows stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 50 := by have h : cfg0.N = 50 := N_0; have := t.isLt; omega

theorem row_lt (t : Fin cfg0.N) (q : Fin 10000) : t.val * 10000 + q.val < 500000 := by
  have := t_lt t; have := q.isLt; omega

theorem iblk0_apply (c : Dev nD) (t : Fin cfg0.N) (q : Fin 10000) (cc : Fin 64) :
    (iblk m c 0 t : Vec Ideal S10000x64 .f32) (ix2 q cc)
      = (m ((c : Thread nD τ).loc main_arg0) : S500000x64.Idx → EReal) (ix2 ⟨t.val * 10000 + q.val, row_lt t q⟩ cc) := by
  unfold iblk
  rw [View.read_apply]
  show V m c main_arg0 _ = _
  rw [V_main_arg0]
  refine congrArg (m ((c : Thread nD τ).loc main_arg0)) (funext fun a => Fin.ext ?_)
  obtain ⟨h0, h1, -⟩ := idx_facts t
  match a with
  | ⟨0, _⟩ => show win0_0.index t (0 : Fin 2) * 10000 + 1 * q.val = t.val * 10000 + q.val; rw [h0]; omega
  | ⟨1, _⟩ => show win0_0.index t (1 : Fin 2) * 64 + 1 * cc.val = cc.val; rw [h1]; omega

theorem iblk1_apply (c : Dev nD) (t : Fin cfg0.N) (cc : Fin 64) (k : Fin 256) :
    (iblk m c 1 t : Vec Ideal S64x256 .bf16) (ix2 cc k)
      = (m ((c : Thread nD τ).loc main_arg1) : S256x64.Idx → EReal) (ix2 k cc) := by
  unfold iblk
  rw [View.read_apply]
  refine Eq.trans ?_ (V_w1 m c cc k)
  show V m c main_v1 _ = V m c main_v1 _
  refine congrArg (V m c main_v1) (funext fun a => Fin.ext ?_)
  obtain ⟨-, -, h0, h1, -⟩ := idx_facts t
  match a with
  | ⟨0, _⟩ => show win0_1.index t (0 : Fin 2) * 64 + 1 * cc.val = cc.val; rw [h0]; omega
  | ⟨1, _⟩ => show win0_1.index t (1 : Fin 2) * 256 + 1 * k.val = k.val; rw [h1]; omega

theorem iblk2_apply (c : Dev nD) (t : Fin cfg0.N) (u : Fin 1) (k : Fin 256) :
    (iblk m c 2 t : Vec Ideal S1x256 .f32) (ix2 u k)
      = (m ((c : Thread nD τ).loc main_arg2) : S256.Idx → EReal) (ix1 k) := by
  unfold iblk
  rw [View.read_apply]
  refine Eq.trans ?_ (V_b1 m c u k)
  show V m c main_v4 _ = V m c main_v4 _
  refine congrArg (V m c main_v4) (funext fun a => Fin.ext ?_)
  obtain ⟨-, -, -, -, h0, h1, -⟩ := idx_facts t
  match a with
  | ⟨0, _⟩ => show win0_2.index t (0 : Fin 2) * 1 + 1 * u.val = u.val; rw [h0]; omega
  | ⟨1, _⟩ => show win0_2.index t (1 : Fin 2) * 256 + 1 * k.val = k.val; rw [h1]; omega

theorem iblk3_apply (c : Dev nD) (t : Fin cfg0.N) (u : Fin 1) (k : Fin 256) :
    (iblk m c 3 t : Vec Ideal S1x256 .f32) (ix2 u k)
      = (m ((c : Thread nD τ).loc main_arg3) : S256.Idx → EReal) (ix1 k) := by
  unfold iblk
  rw [View.read_apply]
  refine Eq.trans ?_ (V_g m c u k)
  show V m c main_v5 _ = V m c main_v5 _
  refine congrArg (V m c main_v5) (funext fun a => Fin.ext ?_)
  obtain ⟨-, -, -, -, -, -, h0, h1, -⟩ := idx_facts t
  match a with
  | ⟨0, _⟩ => show win0_3.index t (0 : Fin 2) * 1 + 1 * u.val = u.val; rw [h0]; omega
  | ⟨1, _⟩ => show win0_3.index t (1 : Fin 2) * 256 + 1 * k.val = k.val; rw [h1]; omega

theorem iblk4_apply (c : Dev nD) (t : Fin cfg0.N) (u : Fin 1) (k : Fin 256) :
    (iblk m c 4 t : Vec Ideal S1x256 .f32) (ix2 u k)
      = (m ((c : Thread nD τ).loc main_arg4) : S256.Idx → EReal) (ix1 k) := by
  unfold iblk
  rw [View.read_apply]
  refine Eq.trans ?_ (V_be m c u k)
  show V m c main_v6 _ = V m c main_v6 _
  refine congrArg (V m c main_v6) (funext fun a => Fin.ext ?_)
  obtain ⟨-, -, -, -, -, -, -, -, h0, h1, -⟩ := idx_facts t
  match a with
  | ⟨0, _⟩ => show win0_4.index t (0 : Fin 2) * 1 + 1 * u.val = u.val; rw [h0]; omega
  | ⟨1, _⟩ => show win0_4.index t (1 : Fin 2) * 256 + 1 * k.val = k.val; rw [h1]; omega

theorem iblk5_apply (c : Dev nD) (t : Fin cfg0.N) (k : Fin 256) (s : Fin 3) :
    (iblk m c 5 t : Vec Ideal S256x3 .bf16) (ix2 k s)
      = (m ((c : Thread nD τ).loc main_arg5) : S3x256.Idx → EReal) (ix2 s k) := by
  unfold iblk
  rw [View.read_apply]
  refine Eq.trans ?_ (V_w2 m c k s)
  show V m c main_v3 _ = V m c main_v3 _
  refine congrArg (V m c main_v3) (funext fun a => Fin.ext ?_)
  obtain ⟨-, -, -, -, -, -, -, -, -, -, h0, h1, -⟩ := idx_facts t
  match a with
  | ⟨0, _⟩ => show win0_5.index t (0 : Fin 2) * 256 + 1 * k.val = k.val; rw [h0]; omega
  | ⟨1, _⟩ => show win0_5.index t (1 : Fin 2) * 3 + 1 * s.val = s.val; rw [h1]; omega

theorem iblk6_apply (c : Dev nD) (t : Fin cfg0.N) (u : Fin 1) (s : Fin 3) :
    (iblk m c 6 t : Vec Ideal S1x3 .f32) (ix2 u s)
      = (m ((c : Thread nD τ).loc main_arg6) : S3.Idx → EReal) (ix1 s) := by
  unfold iblk
  rw [View.read_apply]
  refine Eq.trans ?_ (V_b2 m c u s)
  show V m c main_v7 _ = V m c main_v7 _
  refine congrArg (V m c main_v7) (funext fun a => Fin.ext ?_)
  obtain ⟨-, -, -, -, -, -, -, -, -, -, -, -, h0, h1, -⟩ := idx_facts t
  match a with
  | ⟨0, _⟩ => show win0_6.index t (0 : Fin 2) * 1 + 1 * u.val = u.val; rw [h0]; omega
  | ⟨1, _⟩ => show win0_6.index t (1 : Fin 2) * 3 + 1 * s.val = s.val; rw [h1]; omega

/-! ## A block of forces is a block of the array of forces -/

/-- If the input block is rows `10000 tt …` of the cell states and the resident operands are the arguments re-laid, the
    block of forces at block index `j` is the array of forces at the array index `i` that `j` sits at. -/
theorem block_eq (tt : ℕ) (x0 : Vec Ideal S10000x64 .f32) (x1 : FVec Ideal S64x256 .bf16) (x2 x3 x4 : FVec Ideal S1x256 .f32)
    (x5 : FVec Ideal S256x3 .bf16) (x6 : FVec Ideal S1x3 .f32)
    (a0 : Mat 500000 64) (a1 : Mat 256 64) (a2 a3 a4 : Row 256) (a5 : Mat 3 256) (a6 : Row 3)
    (hrow : ∀ q : Fin 10000, tt * 10000 + q.val < 500000)
    (h0 : ∀ (q : Fin 10000) (cc : Fin 64), x0 (ix2 q cc) = a0 (ix2 ⟨tt * 10000 + q.val, hrow q⟩ cc))
    (h1 : ∀ (cc : Fin 64) (k : Fin 256), x1 (ix2 cc k) = a1 (ix2 k cc))
    (h2 : ∀ k : Fin 256, x2 (ix2 (0 : Fin 1) k) = a2 (ix1 k))
    (h3 : ∀ k : Fin 256, x3 (ix2 (0 : Fin 1) k) = a3 (ix1 k))
    (h4 : ∀ k : Fin 256, x4 (ix2 (0 : Fin 1) k) = a4 (ix1 k))
    (h5 : ∀ (k : Fin 256) (s : Fin 3), x5 (ix2 k s) = a5 (ix2 s k))
    (h6 : ∀ s : Fin 3, x6 (ix2 (0 : Fin 1) s) = a6 (ix1 s))
    (j : S10000x3.Idx) (i : S500000x3.Idx) (hi0 : (i 0).val = tt * 10000 + (j 0).val) (hi1 : (i 1).val = (j 1).val) :
    blockOut x0 x1 x2 x3 x4 x5 x6 j = Cert.Mlp.forces dW epsW a0 a1 a2 a3 a4 a5 a6 i := by
  obtain ⟨q, s, rfl⟩ : ∃ (q : Fin 10000) (s : Fin 3), j = ix2 q s := ⟨j 0, j 1, eq_ix2 j⟩
  obtain ⟨n, s', rfl⟩ : ∃ (n : Fin 500000) (s' : Fin 3), i = ix2 n s' := ⟨i 0, i 1, eq_ix2 i⟩
  obtain rfl : n = ⟨tt * 10000 + q.val, hrow q⟩ := Fin.ext hi0
  obtain rfl : s' = s := Fin.ext hi1
  rw [Cert.Mlp.forces_apply]
  show Cert.Mlp.rowOut dW epsW (fun c : Fin 64 => x0 (ix2 q c)) (fun (k : Fin 256) (c : Fin 64) => x1 (ix2 c k))
      (fun k : Fin 256 => x2 (ix2 (0 : Fin 1) k)) (fun k : Fin 256 => x3 (ix2 (0 : Fin 1) k))
      (fun k : Fin 256 => x4 (ix2 (0 : Fin 1) k)) (fun (s : Fin 3) (k : Fin 256) => x5 (ix2 k s))
      (fun s : Fin 3 => x6 (ix2 (0 : Fin 1) s)) s' = _
  rw [funext (h0 q), funext fun k => funext fun cc => h1 cc k, funext h2, funext h3, funext h4,
    funext fun s => funext fun k => h5 k s, funext h6]

/-! ## What a point writes back, the cover, the array -/

/-- What point `t` writes back is block `t` of the array of forces. -/
theorem flushed_eq (c : Dev nD) (t : Fin cfg0.N) :
    (dats m 0 c).flushed 7 t = ((cfg0.win 7).blk t).view.read (Elt Ideal) (result m c) := by
  refine (Value.flushed7_A m c t).trans ?_
  refine (congrArg ((cfg0.win 7).cut (grid0.coords t))
    (OutBlock.out_eq c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (iblk m c 0 t) (iblk m c 1 t)
      (iblk m c 2 t) (iblk m c 3 t) (iblk m c 4 t) (iblk m c 5 t) (iblk m c 6 t))).trans ?_
  funext j
  obtain ⟨-, -, -, -, -, -, -, -, -, -, -, -, -, -, h0, h1⟩ := idx_facts t
  exact block_eq t.val (iblk m c 0 t) (iblk m c 1 t) (iblk m c 2 t) (iblk m c 3 t) (iblk m c 4 t) (iblk m c 5 t)
    (iblk m c 6 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (row_lt t)
    (iblk0_apply m c t) (iblk1_apply m c t) (iblk2_apply m c t 0) (iblk3_apply m c t 0) (iblk4_apply m c t 0)
    (iblk5_apply m c t) (iblk6_apply m c t 0) j (((cfg0.win 7).blk t).view.emb j)
    (by show win0_7.index t (0 : Fin 2) * 10000 + 1 * (j 0).val = t.val * 10000 + (j 0).val; rw [h0]; omega)
    (by show win0_7.index t (1 : Fin 2) * 3 + 1 * (j 1).val = (j 1).val; rw [h1]; omega)

/-- An index of the array is in point `t`'s block iff each coordinate is in the block's range on its axis. -/
theorem mem_blk (t : Fin cfg0.N) (i : S500000x3.Idx) :
    i ∈ ((cfg0.win 7).blk t).view.set ↔ ∀ a : Fin 2, win0_7.index t a * S10000x3.size a ≤ (i a).val
      ∧ (i a).val < win0_7.index t a * S10000x3.size a + S10000x3.size a := by
  show i ∈ ((View.whole main_v8).slice (win0_7.rect t)).set ↔ _
  rw [View.set_slice_whole, Rect.mem_set_unit]
  exact Iff.rfl

/-- Every index of the array is in some point's block: row `r` is in the block of point `r / 10000`. -/
theorem cover (i : S500000x3.Idx) :
    ∃ t : Fin cfg0.N, (cfg0.win 7).flush t = true ∧ i ∈ ((cfg0.win 7).blk t).view.set := by
  have hN : cfg0.N = 50 := N_0
  have hi0 : (i 0).val < 500000 := (i 0).isLt
  have hi1 : (i 1).val < 3 := (i 1).isLt
  refine ⟨⟨(i 0).val / 10000, by rw [hN]; omega⟩, flush0_7 _, ?_⟩
  rw [mem_blk]
  obtain ⟨-, -, -, -, -, -, -, -, -, -, -, -, -, -, h0, h1⟩ := idx_facts ⟨(i 0).val / 10000, by rw [hN]; omega⟩
  intro a
  match a with
  | ⟨0, _⟩ =>
    show win0_7.index _ (0 : Fin 2) * 10000 ≤ (i 0).val ∧ (i 0).val < win0_7.index _ (0 : Fin 2) * 10000 + 10000
    rw [h0]; dsimp only; omega
  | ⟨1, _⟩ =>
    show win0_7.index _ (1 : Fin 2) * 3 ≤ (i 1).val ∧ (i 1).val < win0_7.index _ (1 : Fin 2) * 3 + 3
    rw [h1]; omega

/-- The result array after the run is the array of forces. -/
theorem final (c : Dev nD) : (dats m 0 c).arrAt 7 cfg0.N = result m c :=
  (dats m 0 c).arrAt_eq_of_cover 7 (result m c) (fun t _ => flushed_eq m c t) cover

/-- The kernel's run, read: the result array at the forces of all cells, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.KRun

end
-- ==== Proof.RefTerm.lean ====
/-
  The reference's result as one pure term of its seven arguments.

  The reference is a straight line of tensor operations: a linear layer, a row-wise normalisation (mean, centred
  values, variance through a helper that recomputes the mean from its own operand, reciprocal square root of the
  variance plus a small constant), an element-wise scale and shift, a rectification, and a second linear layer.
  `refTerm` composes the operations in the order they are printed, one named step per printed value; `varTerm` is the
  variance helper and `reluTerm` the rectification.
-/
import proofs.«127905_j27479200759931_2_alg».proof.ReferenceIdeal

noncomputable section

namespace Cert.ReferenceIdeal.RefRun

open Cert.ReferenceIdeal Idealize.ShloMosaic Idealize.SL.Sem
open Cert.ReferenceIdeal.Facts₀ Cert.ReferenceIdeal.Facts

variable {F : FTy → Type} [FloatOps F] [Facts]

/-- The variance helper at divisor correction zero: the row mean of `x` (sum over the 256 columns divided by 256),
    the centred values squared, their row sum divided by `256 - 0`; where that divisor is not positive the result
    would be the not-a-number constant instead (it is positive, so the quotient is selected). -/
def varTerm (x : FVec F S500000x256 .f32) : FVec F S500000x1 .f32 :=
  let cst : FVec F S_ .f32 := constant S_ .f32 0x00000000#32
  let v0 : FVec F S500000 .f32 := Host.reduceAdd x cst reducesTo_S500000x256_S500000_d1 h_S_
  let v1 : FVec F S500000x1 .f32 := broadcastInDim S500000x1 ![0] bcast_S500000_S500000x1_0 v0
  let cst_0 : FVec F S_ .f32 := constant S_ .f32 0x43800000#32
  let v2 : FVec F S500000x1 .f32 := broadcastInDim S500000x1 ![] bcast_S_S500000x1 cst_0
  let v3 : FVec F S500000x1 .f32 := Host.divf v1 v2
  let v4 : FVec F S500000x256 .f32 := broadcastInDim S500000x256 ![0, 1] bcast_S500000x1_S500000x256_0_1 v3
  let v5 : FVec F S500000x256 .f32 := subf x v4
  let v6 : FVec F S500000x256 .f32 := mulf v5 v5
  let v7 : FVec F S_ .f32 := sitofp .f32 (constantI S_ 32 0#32)
  let cst_1 : FVec F S_ .f32 := constant S_ .f32 0x43800000#32
  let v8 : FVec F S_ .f32 := subf cst_1 v7
  let cst_2 : FVec F S_ .f32 := constant S_ .f32 0x00000000#32
  let v9 : FVec F S500000 .f32 := Host.reduceAdd v6 cst_2 reducesTo_S500000x256_S500000_d1 h_S_
  let v10 : FVec F S500000x1 .f32 := broadcastInDim S500000x1 ![0] bcast_S500000_S500000x1_0 v9
  let v11 : FVec F S500000x1 .f32 := broadcastInDim S500000x1 ![] bcast_S_S500000x1 v8
  let v12 : FVec F S500000x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let w0 : FVec F S_ .f32 := id cst_4
  let w1 : FVec F S500000x1 .f32 := broadcastInDim S500000x1 ![] bcast_S_S500000x1 w0
  select (broadcastInDim S500000x1 ![] bcast_S_S500000x1 v13) v12 w1

/-- The rectification: the maximum of each entry and zero. -/
def reluTerm (x : FVec F S500000x256 .f32) : FVec F S500000x256 .f32 :=
  maximumf x (broadcastInDim S500000x256 ![] bcast_S_S500000x256 (constant S_ .f32 0x00000000#32))

/-- The reference's result `%26` from the contents of its seven arguments, operation by operation. -/
def refTerm (a0 : FVec F S500000x64 .f32) (a1 : FVec F S256x64 .f32) (a2 a3 a4 : FVec F S256 .f32)
    (a5 : FVec F S3x256 .f32) (a6 : FVec F S3 .f32) : FVec F S500000x3 .f32 :=
  let v0 : FVec F S500000x256 .f32 := Host.dotGeneral dot_S500000x64_S256x64_S500000x256_1_1_0_0_n_n none a0 a1
  let v1 : FVec F S1x256 .f32 := broadcastInDim S1x256 ![1] bcast_S256_S1x256_1 a2
  let v2 : FVec F S500000x256 .f32 := broadcastInDim S500000x256 ![0, 1] bcast_S1x256_S500000x256_0_1 v1
  let v3 : FVec F S500000x256 .f32 := addf v0 v2
  let cst : FVec F S_ .f32 := constant S_ .f32 0x00000000#32
  let v4 : FVec F S500000 .f32 := Host.reduceAdd v3 cst reducesTo_S500000x256_S500000_d1 h_S_
  let v5 : FVec F S500000x1 .f32 := broadcastInDim S500000x1 ![0] bcast_S500000_S500000x1_0 v4
  let cst_0 : FVec F S_ .f32 := constant S_ .f32 0x43800000#32
  let v6 : FVec F S500000x1 .f32 := broadcastInDim S500000x1 ![] bcast_S_S500000x1 cst_0
  let v7 : FVec F S500000x1 .f32 := Host.divf v5 v6
  let v8 : FVec F S500000x1 .f32 := varTerm v3
  let v9 : FVec F S500000x256 .f32 := broadcastInDim S500000x256 ![0, 1] bcast_S500000x1_S500000x256_0_1 v7
  let v10 : FVec F S500000x256 .f32 := subf v3 v9
  let cst_1 : FVec F S_ .f32 := constant S_ .f32 0x3727C5AC#32
  let v11 : FVec F S500000x1 .f32 := broadcastInDim S500000x1 ![] bcast_S_S500000x1 cst_1
  let v12 : FVec F S500000x1 .f32 := addf v8 v11
  let v13 : FVec F S500000x1 .f32 := Host.rsqrt v12
  let v14 : FVec F S500000x256 .f32 := broadcastInDim S500000x256 ![0, 1] bcast_S500000x1_S500000x256_0_1 v13
  let v15 : FVec F S500000x256 .f32 := mulf v10 v14
  let v16 : FVec F S1x256 .f32 := broadcastInDim S1x256 ![1] bcast_S256_S1x256_1 a3
  let v17 : FVec F S500000x256 .f32 := broadcastInDim S500000x256 ![0, 1] bcast_S1x256_S500000x256_0_1 v16
  let v18 : FVec F S500000x256 .f32 := mulf v15 v17
  let v19 : FVec F S1x256 .f32 := broadcastInDim S1x256 ![1] bcast_S256_S1x256_1 a4
  let v20 : FVec F S500000x256 .f32 := broadcastInDim S500000x256 ![0, 1] bcast_S1x256_S500000x256_0_1 v19
  let v21 : FVec F S500000x256 .f32 := addf v18 v20
  let v22 : FVec F S500000x256 .f32 := reluTerm v21
  let v23 : FVec F S500000x3 .f32 := Host.dotGeneral dot_S500000x256_S3x256_S500000x3_1_1_0_0_n_n none v22 a5
  let v24 : FVec F S1x3 .f32 := broadcastInDim S1x3 ![1] bcast_S3_S1x3_1 a6
  let v25 : FVec F S500000x3 .f32 := broadcastInDim S500000x3 ![0, 1] bcast_S1x3_S500000x3_0_1 v24
  addf v23 v25

end Cert.ReferenceIdeal.RefRun

end
-- ==== Proof.RefRun.lean ====
/-
  The reference's run read back: its operations as one list, and what the result buffer holds afterwards.

  The reference's entry function is a straight line of tensor operations with two calls of helper functions, one of
  which calls a third. Unfolding the helpers at their calls (each helper's operations over the buffers that call
  names) gives one list of fifty-five operations. Every weakly fair execution of the entry function terminates with
  each buffer at the fold of that list over the launch contents; at the result buffer the fold is `refTerm` of the
  seven arguments' launch contents, and no operation writes an argument.
-/
import proofs.«127905_j27479200759931_2_alg».proof.Proof.Gen.ReferenceIdeal
import proofs.«127905_j27479200759931_2_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The entry function's fifty-five operations in order, the helper functions unfolded at their calls: eleven of its
    own, the variance helper's twenty and the three of the selection it calls, fourteen of its own, the
    rectification's three, four of its own. -/
abbrev ops : List (HloOp τ sig (Elt F)) :=
  [ binary main_arg0 main_arg1 main_v0 ((fun l r => Host.dotGeneral dot_S500000x64_S256x64_S500000x256_1_1_0_0_n_n none l r) : (⟨S500000x64, .f32⟩ : BufTy).Contents (Elt F) → (⟨S256x64, .f32⟩ : BufTy).Contents (Elt F) → (⟨S500000x256, .f32⟩ : BufTy).Contents (Elt F)),
    unary main_arg2 main_v1 (broadcastInDim S1x256 ![1] bcast_S256_S1x256_1 : (⟨S256, .f32⟩ : BufTy).Contents (Elt F) → (⟨S1x256, .f32⟩ : BufTy).Contents (Elt F)),
    unary main_v1 main_v2 (broadcastInDim S500000x256 ![0, 1] bcast_S1x256_S500000x256_0_1 : (⟨S1x256, .f32⟩ : BufTy).Contents (Elt F) → (⟨S500000x256, .f32⟩ : BufTy).Contents (Elt F)),
    binary main_v0 main_v2 main_v3 (addf : (⟨S500000x256, .f32⟩ : BufTy).Contents (Elt F) → (⟨S500000x256, .f32⟩ : BufTy).Contents (Elt F) → (⟨S500000x256, .f32⟩ : BufTy).Contents (Elt F)),
    nullary main_cst (constant S_ .f32 0x00000000#32),
    binary main_v3 main_cst main_v4 ((fun x v => Host.reduceAdd x v reducesTo_S500000x256_S500000_d1 h_S_) : (⟨S500000x256, .f32⟩ : BufTy).Contents (Elt F) → (⟨S_, .f32⟩ : BufTy).Contents (Elt F) → (⟨S500000, .f32⟩ : BufTy).Contents (Elt F)),
    unary main_v4 main_v5 (broadcastInDim S500000x1 ![0] bcast_S500000_S500000x1_0 : (⟨S500000, .f32⟩ : BufTy).Contents (Elt F) → (⟨S500000x1, .f32⟩ : BufTy).Contents (Elt F)),
    nullary main_cst_0 (constant S_ .f32 0x43800000#32),
    unary main_cst_0 main_v6 (broadcastInDim S500000x1 ![] bcast_S_S500000x1 : (⟨S_, .f32⟩ : BufTy).Contents (Elt F) → (⟨S500000x1, .f32⟩ : BufTy).Contents (Elt F)),
    binary main_v5 main_v6 main_v7 (Host.divf : (⟨S500000x1, .f32⟩ : BufTy).Contents (Elt F) → (⟨S500000x1, .f32⟩ : BufTy).Contents (Elt F) → (⟨S500000x1, .f32⟩ : BufTy).Contents (Elt F)),
    nullary main_c (constantI S_ 32 0#32),
    TRef.nullary main_call0.cst (constant S_ .f32 0x00000000#32),
    TRef.binary (.of main_v3 : TRef sig ⟨S500000x256, .f32⟩) main_call0.cst main_call0.v0 (fun x v => Host.reduceAdd x v reducesTo_S500000x256_S500000_d1 h_S_),
    TRef.unary main_call0.v0 main_call0.v1 (broadcastInDim S500000x1 ![0] bcast_S500000_S500000x1_0),
    TRef.nullary main_call0.cst_0 (constant S_ .f32 0x43800000#32),
    TRef.unary main_call0.cst_0 main_call0.v2 (broadcastInDim S500000x1 ![] bcast_S_S500000x1),
    TRef.binary main_call0.v1 main_call0.v2 main_call0.v3 Host.divf,
    TRef.unary main_call0.v3 main_call0.v4 (broadcastInDim S500000x256 ![0, 1] bcast_S500000x1_S500000x256_0_1),
    TRef.binary (.of main_v3 : TRef sig ⟨S500000x256, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x43800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S500000x256_S500000_d1 h_S_),
    TRef.unary main_call0.v9 main_call0.v10 (broadcastInDim S500000x1 ![0] bcast_S500000_S500000x1_0),
    TRef.unary main_call0.v8 main_call0.v11 (broadcastInDim S500000x1 ![] bcast_S_S500000x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S500000x1 ![] bcast_S_S500000x1),
    TRef.ternary main_call0.v13 main_call0.v12 main_call0.call0.v1 main_call0.call0.v2 (fun p a b => select (broadcastInDim S500000x1 ![] bcast_S_S500000x1 p) a b),
    unary main_v7 main_v9 (broadcastInDim S500000x256 ![0, 1] bcast_S500000x1_S500000x256_0_1 : (⟨S500000x1, .f32⟩ : BufTy).Contents (Elt F) → (⟨S500000x256, .f32⟩ : BufTy).Contents (Elt F)),
    binary main_v3 main_v9 main_v10 (subf : (⟨S500000x256, .f32⟩ : BufTy).Contents (Elt F) → (⟨S500000x256, .f32⟩ : BufTy).Contents (Elt F) → (⟨S500000x256, .f32⟩ : BufTy).Contents (Elt F)),
    nullary main_cst_1 (constant S_ .f32 0x3727C5AC#32),
    unary main_cst_1 main_v11 (broadcastInDim S500000x1 ![] bcast_S_S500000x1 : (⟨S_, .f32⟩ : BufTy).Contents (Elt F) → (⟨S500000x1, .f32⟩ : BufTy).Contents (Elt F)),
    binary main_v8 main_v11 main_v12 (addf : (⟨S500000x1, .f32⟩ : BufTy).Contents (Elt F) → (⟨S500000x1, .f32⟩ : BufTy).Contents (Elt F) → (⟨S500000x1, .f32⟩ : BufTy).Contents (Elt F)),
    unary main_v12 main_v13 (Host.rsqrt : (⟨S500000x1, .f32⟩ : BufTy).Contents (Elt F) → (⟨S500000x1, .f32⟩ : BufTy).Contents (Elt F)),
    unary main_v13 main_v14 (broadcastInDim S500000x256 ![0, 1] bcast_S500000x1_S500000x256_0_1 : (⟨S500000x1, .f32⟩ : BufTy).Contents (Elt F) → (⟨S500000x256, .f32⟩ : BufTy).Contents (Elt F)),
    binary main_v10 main_v14 main_v15 (mulf : (⟨S500000x256, .f32⟩ : BufTy).Contents (Elt F) → (⟨S500000x256, .f32⟩ : BufTy).Contents (Elt F) → (⟨S500000x256, .f32⟩ : BufTy).Contents (Elt F)),
    unary main_arg3 main_v16 (broadcastInDim S1x256 ![1] bcast_S256_S1x256_1 : (⟨S256, .f32⟩ : BufTy).Contents (Elt F) → (⟨S1x256, .f32⟩ : BufTy).Contents (Elt F)),
    unary main_v16 main_v17 (broadcastInDim S500000x256 ![0, 1] bcast_S1x256_S500000x256_0_1 : (⟨S1x256, .f32⟩ : BufTy).Contents (Elt F) → (⟨S500000x256, .f32⟩ : BufTy).Contents (Elt F)),
    binary main_v15 main_v17 main_v18 (mulf : (⟨S500000x256, .f32⟩ : BufTy).Contents (Elt F) → (⟨S500000x256, .f32⟩ : BufTy).Contents (Elt F) → (⟨S500000x256, .f32⟩ : BufTy).Contents (Elt F)),
    unary main_arg4 main_v19 (broadcastInDim S1x256 ![1] bcast_S256_S1x256_1 : (⟨S256, .f32⟩ : BufTy).Contents (Elt F) → (⟨S1x256, .f32⟩ : BufTy).Contents (Elt F)),
    unary main_v19 main_v20 (broadcastInDim S500000x256 ![0, 1] bcast_S1x256_S500000x256_0_1 : (⟨S1x256, .f32⟩ : BufTy).Contents (Elt F) → (⟨S500000x256, .f32⟩ : BufTy).Contents (Elt F)),
    binary main_v18 main_v20 main_v21 (addf : (⟨S500000x256, .f32⟩ : BufTy).Contents (Elt F) → (⟨S500000x256, .f32⟩ : BufTy).Contents (Elt F) → (⟨S500000x256, .f32⟩ : BufTy).Contents (Elt F)),
    TRef.nullary main_call1.cst (constant S_ .f32 0x00000000#32),
    TRef.unary main_call1.cst main_call1.v0 (broadcastInDim S500000x256 ![] bcast_S_S500000x256),
    TRef.binary (.of main_v21 : TRef sig ⟨S500000x256, .f32⟩) main_call1.v0 main_call1.v1 maximumf,
    binary main_v22 main_arg5 main_v23 ((fun l r => Host.dotGeneral dot_S500000x256_S3x256_S500000x3_1_1_0_0_n_n none l r) : (⟨S500000x256, .f32⟩ : BufTy).Contents (Elt F) → (⟨S3x256, .f32⟩ : BufTy).Contents (Elt F) → (⟨S500000x3, .f32⟩ : BufTy).Contents (Elt F)),
    unary main_arg6 main_v24 (broadcastInDim S1x3 ![1] bcast_S3_S1x3_1 : (⟨S3, .f32⟩ : BufTy).Contents (Elt F) → (⟨S1x3, .f32⟩ : BufTy).Contents (Elt F)),
    unary main_v24 main_v25 (broadcastInDim S500000x3 ![0, 1] bcast_S1x3_S500000x3_0_1 : (⟨S1x3, .f32⟩ : BufTy).Contents (Elt F) → (⟨S500000x3, .f32⟩ : BufTy).Contents (Elt F)),
    binary main_v23 main_v25 main_v26 (addf : (⟨S500000x3, .f32⟩ : BufTy).Contents (Elt F) → (⟨S500000x3, .f32⟩ : BufTy).Contents (Elt F) → (⟨S500000x3, .f32⟩ : BufTy).Contents (Elt F)) ]

set_option maxRecDepth 4096 in
/-- The entry function is that straight line: the helpers' definitions unfolded at their calls, both sides are one
    chain of steps once sequencing is reassociated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- Every weakly fair execution of the entry function terminates with every buffer at the fold of the list. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is `refTerm` of the arguments' contents: each operation's result at its own
    buffer is its function's value and at any other buffer what was there; a helper's values pass through their
    buffers' types unchanged. -/
theorem out_eq (V : Valuation τ sig (Elt F)) :
    after ops V (main_v26 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- On every device, for any float values, from any memory with zero counters: every weakly fair execution of the
    entry function terminates with the result buffer at `refTerm` of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = refTerm (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v26).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_main m ρ)

end Cert.ReferenceIdeal.RefRun

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«127905_j27479200759931_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.RefValue.lean ====
/-
  The reference's result read at an index on the extended reals.

  At row `n` and coordinate `s` the reference's result is the force coordinate `s` of the cell whose state is row `n`
  of the first argument (`Cert.Mlp.rowOut`).  Each stage is read at an index by the one law of its operation: a product
  contracting the second axes of both operands is the sum over that axis; a row sum from a zero initial value, broadcast
  to a column, is the row's sum; a vector broadcast to one row and that row to every row is the vector at the column; a
  scalar broadcast everywhere is the scalar.  The variance helper divides by `256 - 0` and selects the quotient where
  that divisor is positive: it is the word of 256 minus the integer zero converted, which is that word, and the word
  denotes the real 256, above zero, so the quotient is selected whatever the alternative reads as.
-/
import proofs.«127905_j27479200759931_2_alg».proof.Proof.RefTerm
import proofs.«127905_j27479200759931_2_alg».proof.Proof.Spec
import proofs.«127905_j27479200759931_2_alg».proof.Proof.LibDense
import proofs.«127905_j27479200759931_2_alg».proof.Proof.LibRowBlocks
import proofs.«127905_j27479200759931_2_alg».proof.Proof.LibHostLayout

noncomputable section

open scoped BigOperators

namespace Cert.ReferenceIdeal.RefRun

open Cert.ReferenceIdeal Idealize.ShloMosaic Idealize.ShloMosaic.ValueIdx Cert.HostLayout
open Cert.ReferenceIdeal.Facts₀ Cert.ReferenceIdeal.Facts

/-- The divisor both programs spell: the word of 256. -/
abbrev dW : EReal := Ideal.ofBits .f32 0x43800000#32
/-- The offset both programs spell under the root. -/
abbrev epsW : EReal := Ideal.ofBits .f32 0x3727C5AC#32

/-! ## The two words -/

/-- The divisor's word denotes the real 256. -/
theorem dW_eq : Ideal.ofBits .f32 0x43800000#32 = ((256 : ℝ) : EReal) := by
  simp [Ideal.ofBits, Ideal.ieee, -EReal.coe_mul]; norm_num

/-- The real 256 is above the zero word's value. -/
theorem cmp_dW : Ideal.cmp .ogt dW (Ideal.ofBits .f32 0x00000000#32) = 1#1 := by
  have h : (0 : EReal) < ((256 : ℝ) : EReal) := by exact_mod_cast (by norm_num : (0 : ℝ) < 256)
  show Ideal.cmp .ogt (Ideal.ofBits .f32 0x43800000#32) (Ideal.ofBits .f32 0x00000000#32) = 1#1
  rw [Ideal.ofBits_zero_f32, dW_eq]
  simp [Ideal.cmp, h]

/-! ## The stages -/

variable [Facts]

/-- The first linear layer: the product with the first weight matrix's rows, plus the bias at the column. -/
def hidT (a0 : FVec Ideal S500000x64 .f32) (a1 : FVec Ideal S256x64 .f32) (a2 : FVec Ideal S256 .f32) :
    FVec Ideal S500000x256 .f32 :=
  addf (Host.dotGeneral dot_S500000x64_S256x64_S500000x256_1_1_0_0_n_n none a0 a1)
    (broadcastInDim S500000x256 ![0, 1] bcast_S1x256_S500000x256_0_1 (broadcastInDim S1x256 ![1] bcast_S256_S1x256_1 a2))

/-- The column of row means: each row's sum divided by the divisor's word. -/
def meanT (x : FVec Ideal S500000x256 .f32) : FVec Ideal S500000x1 .f32 :=
  Host.divf
    (broadcastInDim S500000x1 ![0] bcast_S500000_S500000x1_0
      (Host.reduceAdd x (constant S_ .f32 0x00000000#32) reducesTo_S500000x256_S500000_d1 h_S_))
    (broadcastInDim S500000x1 ![] bcast_S_S500000x1 (constant S_ .f32 0x43800000#32))

/-- Each entry minus its row's mean. -/
def cenT (x : FVec Ideal S500000x256 .f32) : FVec Ideal S500000x256 .f32 :=
  subf x (broadcastInDim S500000x256 ![0, 1] bcast_S500000x1_S500000x256_0_1 (meanT x))

/-- The variance helper's divisor: the word of 256 minus the integer zero converted. -/
def divisorT : FVec Ideal S_ .f32 :=
  subf (constant S_ .f32 0x43800000#32) (sitofp .f32 (constantI S_ 32 0#32))

/-- The normalised, scaled, shifted and rectified array. -/
def actT (x : FVec Ideal S500000x256 .f32) (a3 a4 : FVec Ideal S256 .f32) : FVec Ideal S500000x256 .f32 :=
  reluTerm
    (addf
      (mulf
        (mulf (cenT x)
          (broadcastInDim S500000x256 ![0, 1] bcast_S500000x1_S500000x256_0_1
            (Host.rsqrt (addf (varTerm x) (broadcastInDim S500000x1 ![] bcast_S_S500000x1 (constant S_ .f32 0x3727C5AC#32))))))
        (broadcastInDim S500000x256 ![0, 1] bcast_S1x256_S500000x256_0_1 (broadcastInDim S1x256 ![1] bcast_S256_S1x256_1 a3)))
      (broadcastInDim S500000x256 ![0, 1] bcast_S1x256_S500000x256_0_1 (broadcastInDim S1x256 ![1] bcast_S256_S1x256_1 a4)))

theorem hidT_apply (a0 : FVec Ideal S500000x64 .f32) (a1 : FVec Ideal S256x64 .f32) (a2 : FVec Ideal S256 .f32)
    (n : Fin 500000) (k : Fin 256) :
    hidT a0 a1 a2 (ix2 n k)
      = Cert.Mlp.hid (fun c : Fin 64 => a0 (ix2 n c)) (fun (k : Fin 256) (c : Fin 64) => a1 (ix2 k c))
          (fun k : Fin 256 => a2 (ix1 k)) k := by
  show Host.dotGeneral (F := Ideal) dot_S500000x64_S256x64_S500000x256_1_1_0_0_n_n none a0 a1 (ix2 n k)
      + broadcastInDim S500000x256 ![0, 1] bcast_S1x256_S500000x256_0_1
          (broadcastInDim S1x256 ![1] bcast_S256_S1x256_1 a2) (ix2 n k) = _
  rw [hostDot_abT dot_S500000x64_S256x64_S500000x256_1_1_0_0_n_n rfl rfl rfl rfl rfl rfl, bcast_vec_mat]
  rfl

theorem meanT_apply (x : FVec Ideal S500000x256 .f32) (n : Fin 500000) (u : Fin 1) :
    meanT x (ix2 n u) = Ideal.div (∑ k : Fin 256, x (ix2 n k)) dW := by
  show Ideal.div
      (broadcastInDim S500000x1 ![0] bcast_S500000_S500000x1_0
        (Host.reduceAdd x (constant S_ .f32 0x00000000#32) reducesTo_S500000x256_S500000_d1 h_S_) (ix2 n u))
      (broadcastInDim S500000x1 ![] bcast_S_S500000x1 (constant (F := Ideal) S_ .f32 0x43800000#32) (ix2 n u)) = _
  rw [bcast_vec_col, bcast_scalar_mat, hostRowSum x _ reducesTo_S500000x256_S500000_d1 (by decide) h_S_ n]
  show Ideal.div (Ideal.ofBits .f32 0x00000000#32 + ∑ k : Fin 256, x (ix2 n k)) (Ideal.ofBits .f32 0x43800000#32) = _
  rw [Ideal.ofBits_zero_f32, zero_add]

theorem cenT_apply (x : FVec Ideal S500000x256 .f32) (n : Fin 500000) (k : Fin 256) :
    cenT x (ix2 n k) = Cert.Mlp.cen dW (fun k : Fin 256 => x (ix2 n k)) k := by
  show x (ix2 n k) - broadcastInDim S500000x256 ![0, 1] bcast_S500000x1_S500000x256_0_1 (meanT x) (ix2 n k) = _
  rw [bcast_col_mat, meanT_apply]
  rfl

/-- The helper's divisor is the divisor's word: the integer zero converts to the real zero. -/
theorem divisorT_apply (i : S_.Idx) : divisorT i = dW := by
  show Ideal.ofBits .f32 0x43800000#32 - (((0 : ℤ) : ℝ) : EReal) = _
  rw [Int.cast_zero, EReal.coe_zero, sub_zero]

/-- The variance helper as its stages. -/
theorem varTerm_eq (x : FVec Ideal S500000x256 .f32) :
    varTerm x
      = select (broadcastInDim S500000x1 ![] bcast_S_S500000x1 (cmpf .ogt divisorT (constant S_ .f32 0x00000000#32)))
          (Host.divf
            (broadcastInDim S500000x1 ![0] bcast_S500000_S500000x1_0
              (Host.reduceAdd (mulf (cenT x) (cenT x)) (constant S_ .f32 0x00000000#32)
                reducesTo_S500000x256_S500000_d1 h_S_))
            (broadcastInDim S500000x1 ![] bcast_S_S500000x1 divisorT))
          (broadcastInDim S500000x1 ![] bcast_S_S500000x1 (id (constant S_ .f32 0x7FC00000#32))) := rfl

theorem varTerm_apply (x : FVec Ideal S500000x256 .f32) (n : Fin 500000) (u : Fin 1) :
    varTerm x (ix2 n u)
      = Ideal.div (∑ k : Fin 256, Cert.Mlp.cen dW (fun k : Fin 256 => x (ix2 n k)) k
          * Cert.Mlp.cen dW (fun k : Fin 256 => x (ix2 n k)) k) dW := by
  rw [varTerm_eq]
  show Scalar.select
      (broadcastInDim S500000x1 ![] bcast_S_S500000x1 (cmpf .ogt divisorT (constant S_ .f32 0x00000000#32)) (ix2 n u))
      (Ideal.div
        (broadcastInDim S500000x1 ![0] bcast_S500000_S500000x1_0
          (Host.reduceAdd (mulf (cenT x) (cenT x)) (constant S_ .f32 0x00000000#32)
            reducesTo_S500000x256_S500000_d1 h_S_) (ix2 n u))
        (broadcastInDim S500000x1 ![] bcast_S_S500000x1 divisorT (ix2 n u)))
      (broadcastInDim S500000x1 ![] bcast_S_S500000x1 (id (constant (F := Ideal) S_ .f32 0x7FC00000#32)) (ix2 n u)) = _
  rw [bcast_scalar_mat, bcast_scalar_mat, bcast_scalar_mat, bcast_vec_col,
    hostRowSum _ _ reducesTo_S500000x256_S500000_d1 (by decide) h_S_ n]
  show Scalar.select (Ideal.cmp .ogt (divisorT ix0) (Ideal.ofBits .f32 0x00000000#32))
      (Ideal.div (Ideal.ofBits .f32 0x00000000#32 + ∑ k : Fin 256, cenT x (ix2 n k) * cenT x (ix2 n k)) (divisorT ix0))
      (Ideal.ofBits .f32 0x7FC00000#32) = _
  rw [divisorT_apply, cmp_dW, select_one, Ideal.ofBits_zero_f32, zero_add]
  exact congrArg (Ideal.div · dW) (Finset.sum_congr rfl fun k _ => by rw [cenT_apply])

theorem actT_apply (x : FVec Ideal S500000x256 .f32) (a3 a4 : FVec Ideal S256 .f32) (n : Fin 500000) (k : Fin 256) :
    actT x a3 a4 (ix2 n k)
      = Cert.Mlp.act dW epsW (fun k : Fin 256 => x (ix2 n k)) (fun k : Fin 256 => a3 (ix1 k))
          (fun k : Fin 256 => a4 (ix1 k)) k := by
  show max (cenT x (ix2 n k)
        * broadcastInDim S500000x256 ![0, 1] bcast_S500000x1_S500000x256_0_1
            (Host.rsqrt (addf (varTerm x) (broadcastInDim S500000x1 ![] bcast_S_S500000x1 (constant S_ .f32 0x3727C5AC#32))))
            (ix2 n k)
        * broadcastInDim S500000x256 ![0, 1] bcast_S1x256_S500000x256_0_1
            (broadcastInDim S1x256 ![1] bcast_S256_S1x256_1 a3) (ix2 n k)
      + broadcastInDim S500000x256 ![0, 1] bcast_S1x256_S500000x256_0_1
          (broadcastInDim S1x256 ![1] bcast_S256_S1x256_1 a4) (ix2 n k))
      (broadcastInDim S500000x256 ![] bcast_S_S500000x256 (constant (F := Ideal) S_ .f32 0x00000000#32) (ix2 n k)) = _
  rw [bcast_col_mat, bcast_vec_mat, bcast_vec_mat, bcast_scalar_mat]
  show max (cenT x (ix2 n k)
        * Ideal.rsqrt (varTerm x (ix2 n (0 : Fin 1))
            + broadcastInDim S500000x1 ![] bcast_S_S500000x1 (constant (F := Ideal) S_ .f32 0x3727C5AC#32) (ix2 n (0 : Fin 1)))
        * a3 (ix1 k) + a4 (ix1 k)) (Ideal.ofBits .f32 0x00000000#32) = _
  rw [bcast_scalar_mat, varTerm_apply, cenT_apply, Ideal.ofBits_zero_f32]
  rfl

/-- The reference's result as its stages. -/
theorem refTerm_stages (a0 : FVec Ideal S500000x64 .f32) (a1 : FVec Ideal S256x64 .f32) (a2 a3 a4 : FVec Ideal S256 .f32)
    (a5 : FVec Ideal S3x256 .f32) (a6 : FVec Ideal S3 .f32) :
    refTerm (F := Ideal) a0 a1 a2 a3 a4 a5 a6
      = addf (Host.dotGeneral dot_S500000x256_S3x256_S500000x3_1_1_0_0_n_n none (actT (hidT a0 a1 a2) a3 a4) a5)
          (broadcastInDim S500000x3 ![0, 1] bcast_S1x3_S500000x3_0_1 (broadcastInDim S1x3 ![1] bcast_S3_S1x3_1 a6)) := rfl

/-- The reference's result at `(n, s)` is the force coordinate `s` of the cell in row `n`. -/
theorem refTerm_apply (a0 : FVec Ideal S500000x64 .f32) (a1 : FVec Ideal S256x64 .f32) (a2 a3 a4 : FVec Ideal S256 .f32)
    (a5 : FVec Ideal S3x256 .f32) (a6 : FVec Ideal S3 .f32) (n : Fin 500000) (s : Fin 3) :
    refTerm (F := Ideal) a0 a1 a2 a3 a4 a5 a6 (ix2 n s)
      = Cert.Mlp.rowOut dW epsW (fun c : Fin 64 => a0 (ix2 n c)) (fun (k : Fin 256) (c : Fin 64) => a1 (ix2 k c))
          (fun k : Fin 256 => a2 (ix1 k)) (fun k : Fin 256 => a3 (ix1 k)) (fun k : Fin 256 => a4 (ix1 k))
          (fun (s : Fin 3) (k : Fin 256) => a5 (ix2 s k)) (fun s : Fin 3 => a6 (ix1 s)) s := by
  rw [refTerm_stages]
  show Host.dotGeneral (F := Ideal) dot_S500000x256_S3x256_S500000x3_1_1_0_0_n_n none (actT (hidT a0 a1 a2) a3 a4) a5 (ix2 n s)
      + broadcastInDim S500000x3 ![0, 1] bcast_S1x3_S500000x3_0_1 (broadcastInDim S1x3 ![1] bcast_S3_S1x3_1 a6) (ix2 n s) = _
  rw [hostDot_abT dot_S500000x256_S3x256_S500000x3_1_1_0_0_n_n rfl rfl rfl rfl rfl rfl, bcast_vec_mat]
  unfold Cert.Mlp.rowOut
  refine congrArg (· + a6 (ix1 s)) (Finset.sum_congr rfl fun k _ => ?_)
  rw [actT_apply]
  refine congrArg (fun f : Fin 256 → EReal => Cert.Mlp.act dW epsW f _ _ k * a5 (ix2 s k)) (funext fun k' => ?_)
  exact hidT_apply a0 a1 a2 n k'

/-- The reference's result is every cell's force. -/
theorem refTerm_eq (a0 : FVec Ideal S500000x64 .f32) (a1 : FVec Ideal S256x64 .f32) (a2 a3 a4 : FVec Ideal S256 .f32)
    (a5 : FVec Ideal S3x256 .f32) (a6 : FVec Ideal S3 .f32) :
    refTerm (F := Ideal) a0 a1 a2 a3 a4 a5 a6
      = Cert.Mlp.forces (Ideal.ofBits .f32 0x43800000#32) (Ideal.ofBits .f32 0x3727C5AC#32) a0 a1 a2 a3 a4 a5 a6 := by
  funext i
  obtain ⟨n, s, rfl⟩ : ∃ (n : Fin 500000) (s : Fin 3), i = ix2 n s := ⟨i 0, i 1, eq_ix2 i⟩
  rw [Cert.Mlp.forces_apply]
  exact refTerm_apply a0 a1 a2 a3 a4 a5 a6 n s

end Cert.ReferenceIdeal.RefRun

end
-- ==== Proof.lean ====
/-
  The kernel and its reference compute the same forces.

  Both programs take 500000 cell states of 64 numbers and send each through a linear layer to 256 hidden values, normalise
  that row (subtract its mean, divide by the root of its variance plus a small offset), scale and shift it, cut it at
  zero, and send it through a second linear layer to 3 force coordinates (`Cert.Mlp.rowOut`, `Cert.Mlp.forces`).  The
  kernel does this on blocks of 10000 cells in slabs of 2000, with the weight matrices transposed and the biases laid out
  as rows before the launch, its matrix products on the matrix unit into a zero accumulator; the reference does it on the
  whole array with contractions over the second axes of both operands and computes the variance through a helper that
  recomputes the mean.  On the extended reals every one of these differences disappears: a change of float format is the
  identity, a contraction is the sum over the contracted axis however the operands are laid out, a row sum is the sum of the
  row, and the helper's divisor `256 - 0` is `256`, which is positive, so its guard selects the quotient.  No law that
  needs finiteness is used: the two results are the same term of the same sums, so the precondition is never opened.

  The three frames: the two kernels' are their generated frame certificates; the reference's is its run with the result
  dropped.  Nothing was rewritten by the idealization, so there is nothing to preserve.
-/
import proofs.«127905_j27479200759931_2_alg».proof.Defs
import proofs.«127905_j27479200759931_2_alg».proof.Proof.Gen.Kernel
import proofs.«127905_j27479200759931_2_alg».proof.Proof.Gen.Kernel.Frame
import proofs.«127905_j27479200759931_2_alg».proof.Proof.Gen.KernelIdeal
import proofs.«127905_j27479200759931_2_alg».proof.Proof.Gen.KernelIdeal.Frame
import proofs.«127905_j27479200759931_2_alg».proof.Proof.Gen.ReferenceIdeal
import proofs.«127905_j27479200759931_2_alg».proof.Proof.Gen.Pre_finite_inputs
import proofs.«127905_j27479200759931_2_alg».proof.Proof.KernelRun
import proofs.«127905_j27479200759931_2_alg».proof.Proof.RefRun
import proofs.«127905_j27479200759931_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves its arguments as they were. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result array at the forces of all cells, the same function of arguments that agree. -/
theorem algebraic : Cert.algebraic_KernelIdeal_ReferenceIdeal := by
  intro m ρ m' ρ' _ hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6⟩ := hagree c
  rw [Cert.ReferenceIdeal.RefRun.refTerm_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
